-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x3 : Shape := ⟨3, ![16, 1024, 3]⟩
abbrev S16x1024x1024 : Shape := ⟨3, ![16, 1024, 1024]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel

variable [Facts]

def fn {F : FTy → Type} [FloatOps F] (main_arg0 : FVec F S16x1024x3 .f32) (main_arg1 : IVec S16x1024x1024 1) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  main_v3
-- ==== Kernel.lean ====
abbrev S16x1024x3 : Shape := ⟨3, ![16, 1024, 3]⟩
abbrev S16x1024x1024 : Shape := ⟨3, ![16, 1024, 1024]⟩
abbrev S16x3x1024x1024 : Shape := ⟨4, ![16, 3, 1024, 1024]⟩
abbrev S1x256x3 : Shape := ⟨3, ![1, 256, 3]⟩
abbrev S1x1024x3 : Shape := ⟨3, ![1, 1024, 3]⟩
abbrev S1x256x1024 : Shape := ⟨3, ![1, 256, 1024]⟩
abbrev S1x3x256x1024 : Shape := ⟨4, ![1, 3, 256, 1024]⟩
abbrev S256x3 : Shape := ⟨2, ![256, 3]⟩
abbrev S1024x3 : Shape := ⟨2, ![1024, 3]⟩
abbrev S256x1024 : Shape := ⟨2, ![256, 1024]⟩
abbrev S256x1 : Shape := ⟨2, ![256, 1]⟩
abbrev S256 : Shape := ⟨1, ![256]⟩
abbrev S1024x1 : Shape := ⟨2, ![1024, 1]⟩
abbrev S1024 : Shape := ⟨1, ![1024]⟩
abbrev S1x1024 : Shape := ⟨2, ![1, 1024]⟩
abbrev S1x1x256x1024 : Shape := ⟨4, ![1, 1, 256, 1024]⟩
abbrev S16x1024x1024x3 : Shape := ⟨4, ![16, 1024, 1024, 3]⟩

abbrev nBuf : Space → Nat
  | .hbm => 6
  | .vmem => 10
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .i1⟩
  | .hbm, ⟨2, _⟩ => ⟨S16x1024x1024, .i32⟩
  | .hbm, ⟨3, _⟩ => ⟨S16x1024x1024, .f32⟩
  | .hbm, ⟨4, _⟩ => ⟨S16x3x1024x1024, .f32⟩
  | .hbm, ⟨5, _⟩ => ⟨S16x1024x1024x3, .f32⟩
  | .local _ .vmem, ⟨0, _⟩ => ⟨S1x256x3, .f32⟩
  | .local _ .vmem, ⟨1, _⟩ => ⟨S1x256x3, .f32⟩
  | .local _ .vmem, ⟨2, _⟩ => ⟨S1x1024x3, .f32⟩
  | .local _ .vmem, ⟨3, _⟩ => ⟨S1x1024x3, .f32⟩
  | .local _ .vmem, ⟨4, _⟩ => ⟨S1x256x1024, .i32⟩
  | .local _ .vmem, ⟨5, _⟩ => ⟨S1x256x1024, .i32⟩
  | .local _ .vmem, ⟨6, _⟩ => ⟨S1x256x1024, .f32⟩
  | .local _ .vmem, ⟨7, _⟩ => ⟨S1x256x1024, .f32⟩
  | .local _ .vmem, ⟨8, _⟩ => ⟨S1x3x256x1024, .f32⟩
  | .local _ .vmem, ⟨9, _⟩ => ⟨S1x3x256x1024, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  natLt_1_32 : 1 < 32
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  slices_S256x3_o0_0_S256x1 : S256x3.Slices ![0, 0] S256x1
  shapeCasts_S256x1_S256 : S256x1.ShapeCasts S256
  shapeCasts_S256_S256x1 : S256.ShapeCasts S256x1
  slices_S1024x3_o0_0_S1024x1 : S1024x3.Slices ![0, 0] S1024x1
  shapeCasts_S1024x1_S1024 : S1024x1.ShapeCasts S1024
  shapeCasts_S1024_S1x1024 : S1024.ShapeCasts S1x1024
  broadcasts_S1x1024_S256x1024 : S1x1024.Broadcasts S256x1024
  broadcasts_S256x1_S256x1024 : S256x1.Broadcasts S256x1024
  inb_S1x3x256x1024_S1x1x256x1024_0_0_0_0 : ∀ a, (![0, 0, 0, 0] : Fin 4 → Nat) a + S1x1x256x1024.size a ≤ S1x3x256x1024.size a
  h_S1x1x256x1024 : 0 < S1x1x256x1024.numel
  shapeCasts_S1x1x256x1024_S256x1024 : S1x1x256x1024.ShapeCasts S256x1024
  shapeCasts_S256x1024_S1x1x256x1024 : S256x1024.ShapeCasts S1x1x256x1024
  slices_S256x3_o0_1_S256x1 : S256x3.Slices ![0, 1] S256x1
  slices_S1024x3_o0_1_S1024x1 : S1024x3.Slices ![0, 1] S1024x1
  inb_S1x3x256x1024_S1x1x256x1024_0_1_0_0 : ∀ a, (![0, 1, 0, 0] : Fin 4 → Nat) a + S1x1x256x1024.size a ≤ S1x3x256x1024.size a
  slices_S256x3_o0_2_S256x1 : S256x3.Slices ![0, 2] S256x1
  slices_S1024x3_o0_2_S1024x1 : S1024x3.Slices ![0, 2] S1024x1
  inb_S1x3x256x1024_S1x1x256x1024_0_2_0_0 : ∀ a, (![0, 2, 0, 0] : Fin 4 → Nat) a + S1x1x256x1024.size a ≤ S1x3x256x1024.size a
  shapeCasts_S256x1024_S1x256x1024 : S256x1024.ShapeCasts S1x256x1024
  transposes_S16x3x1024x1024_S16x1024x1024x3_0_2_3_1 : S16x3x1024x1024.Transposes [0, 2, 3, 1] S16x1024x1024x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S16x1024x3.size a
  hwx0_0 : ∀ i : grid0.Coords, EltTy.bits .f32 = 32 ∨ (Rect.block (s := S16x1024x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x1024x3.size a
  hwx0_1 : ∀ i : grid0.Coords, EltTy.bits .f32 = 32 ∨ (Rect.block (s := S16x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x1024x1024.size a
  hwx0_2 : ∀ i : grid0.Coords, EltTy.bits .i32 = 32 ∨ (Rect.block (s := S16x1024x1024) S1x256x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x256x1024.size a ≤ S16x3x1024x1024.size a
  hwx0_4 : ∀ i : grid0.Coords, EltTy.bits .f32 = 32 ∨ (Rect.block (s := S16x3x1024x1024) S1x3x256x1024.size (cc0_transform_4 i) (hinb0_4 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x3x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x3 : Shape := ⟨3, ![16, 1024, 3]⟩
abbrev S16x1024x1024 : Shape := ⟨3, ![16, 1024, 1024]⟩
abbrev S16x1024x1024x1 : Shape := ⟨4, ![16, 1024, 1024, 1]⟩
abbrev S16x1x1024x3 : Shape := ⟨4, ![16, 1, 1024, 3]⟩
abbrev S16x1024x1x3 : Shape := ⟨4, ![16, 1024, 1, 3]⟩
abbrev S16x1024x1024x3 : Shape := ⟨4, ![16, 1024, 1024, 3]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16x1024x1024, .i1⟩
  | .hbm, ⟨2, _⟩ => ⟨S16x1024x1024, .f32⟩
  | .hbm, ⟨3, _⟩ => ⟨S16x1024x1024x1, .f32⟩
  | .hbm, ⟨4, _⟩ => ⟨S16x1x1024x3, .f32⟩
  | .hbm, ⟨5, _⟩ => ⟨S16x1024x1x3, .f32⟩
  | .hbm, ⟨6, _⟩ => ⟨S16x1024x1024x3, .f32⟩
  | .hbm, ⟨7, _⟩ => ⟨S16x1024x1024x3, .f32⟩
  | .hbm, ⟨8, _⟩ => ⟨S16x1024x1024x3, .f32⟩
  | .hbm, ⟨9, _⟩ => ⟨S16x1024x1024x3, .f32⟩
  | .hbm, ⟨10, _⟩ => ⟨S16x1024x1024x3, .f32⟩
  | .hbm, ⟨11, _⟩ => ⟨S16x1024x1024x3, .f32⟩
  | .hbm, ⟨12, _⟩ => ⟨S_, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .i1⟩
  | .hbm, ⟨17, _⟩ => ⟨S_, .f32⟩
  | .hbm, ⟨18, _⟩ => ⟨S16x1024x1024, .f32⟩
  | .hbm, ⟨19, _⟩ => ⟨S16x1024x1024, .i1⟩
  | .hbm, ⟨20, _⟩ => ⟨S_, .f32⟩
  | .hbm, ⟨21, _⟩ => ⟨S_, .f32⟩
  | .hbm, ⟨22, _⟩ => ⟨S16x1024x1024, .f32⟩
  | .hbm, ⟨23, _⟩ => ⟨S16x1024x1024, .f32⟩
  | .hbm, ⟨24, _⟩ => ⟨S16x1024x1024, .f32⟩
  | .hbm, ⟨25, _⟩ => ⟨S_, .f32⟩
  | .hbm, ⟨26, _⟩ => ⟨S_, .f32⟩
  | .hbm, ⟨27, _⟩ => ⟨S16x1024x1024, .f32⟩
  | .hbm, ⟨28, _⟩ => ⟨S16x1024x1024, .f32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S16x1024x1024_S16x1024x1024x1_0_1_2 : S16x1024x1024.BroadcastsInDim S16x1024x1024x1 (![0, 1, 2] : Fin 3 → Fin S16x1024x1024x1.rank)
  bcast_S16x1024x3_S16x1x1024x3_0_2_3 : S16x1024x3.BroadcastsInDim S16x1x1024x3 (![0, 2, 3] : Fin 3 → Fin S16x1x1024x3.rank)
  bcast_S16x1024x3_S16x1024x1x3_0_1_3 : S16x1024x3.BroadcastsInDim S16x1024x1x3 (![0, 1, 3] : Fin 3 → Fin S16x1024x1x3.rank)
  bcast_S16x1x1024x3_S16x1024x1024x3_0_1_2_3 : S16x1x1024x3.BroadcastsInDim S16x1024x1024x3 (![0, 1, 2, 3] : Fin 4 → Fin S16x1024x1024x3.rank)
  bcast_S16x1024x1x3_S16x1024x1024x3_0_1_2_3 : S16x1024x1x3.BroadcastsInDim S16x1024x1024x3 (![0, 1, 2, 3] : Fin 4 → Fin S16x1024x1024x3.rank)
  bcast_S16x1024x1024x1_S16x1024x1024x3_0_1_2_3 : S16x1024x1024x1.BroadcastsInDim S16x1024x1024x3 (![0, 1, 2, 3] : Fin 4 → Fin S16x1024x1024x3.rank)
  reducesTo_S16x1024x1024x3_S16x1024x1024_d3 : S16x1024x1024x3.ReducesTo [3] S16x1024x1024
  h_S_ : 0 < S_.numel
  bcast_S_S16x1024x1024 : S_.BroadcastsInDim S16x1024x1024 (![] : Fin 0 → Fin S16x1024x1024.rank)

variable [Facts₀]

class Facts : Prop extends Facts₀ where

variable [Facts]
-- ==== Proof.BodyK.lean ====
/-
  The kernel body as one step: on whole staging buffers holding a block of centre-atom positions (256 atoms), the
  system's positions (1024 atoms) and a 256 x 1024 block of the neighbour table, the body leaves the three input
  buffers as they were, fills the distance buffer with one store, and fills the displacement buffer, laid out
  coordinate-major as 3 planes of 256 x 1024, with one store per plane. What each output buffer then holds is the
  overlay of those stores on anything; the three planes tile the displacement buffer and the single store covers
  the distance buffer, so nothing of the previous contents is left.
-/
import proofs.«149282_j17884243820650_2_alg».proof.Proof.Gen.Kernel.Launch
import proofs.«149282_j17884243820650_2_alg».proof.Proof.Gen.Kernel.Skeleton
import proofs.«149282_j17884243820650_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole block of centre atoms, of the system's atoms, and of the table (also the whole distance block). -/
abbrev rCentre : Rect S1x256x3 := Rect.unit (s := S1x256x3) ![0, 0, 0] S1x256x3.size inb_S1x256x3_S1x256x3_0_0_0
abbrev rSystem : Rect S1x1024x3 := Rect.unit (s := S1x1024x3) ![0, 0, 0] S1x1024x3.size inb_S1x1024x3_S1x1024x3_0_0_0
abbrev rTable : Rect S1x256x1024 := Rect.unit (s := S1x256x1024) ![0, 0, 0] S1x256x1024.size inb_S1x256x1024_S1x256x1024_0_0_0
/-- Plane c of the displacement block: coordinate c of every pair. -/
abbrev rPlane0 : Rect S1x3x256x1024 := Rect.unit (s := S1x3x256x1024) ![0, 0, 0, 0] S1x1x256x1024.size inb_S1x3x256x1024_S1x1x256x1024_0_0_0_0
abbrev rPlane1 : Rect S1x3x256x1024 := Rect.unit (s := S1x3x256x1024) ![0, 1, 0, 0] S1x1x256x1024.size inb_S1x3x256x1024_S1x1x256x1024_0_1_0_0
abbrev rPlane2 : Rect S1x3x256x1024 := Rect.unit (s := S1x3x256x1024) ![0, 2, 0, 0] S1x1x256x1024.size inb_S1x3x256x1024_S1x1x256x1024_0_2_0_0

/-! ## What the body leaves in the two output buffers -/

/-- The distance buffer after the body: its one store, over the three input blocks. -/
def outDist (x0 : Vec F S1x256x3 .f32) (x1 : Vec F S1x1024x3 .f32) (x2 : Vec F S1x256x1024 .i32) : Vec F S1x256x1024 .f32 :=
  View.canon [⟨rTable, k0_pay3 (k0_pay4 (View.ld x0 rCentre)) (k0_pay5 (View.ld x1 rSystem)) (k0_pay6 (View.ld x2 rTable))
    (k0_pay9 (View.ld x0 rCentre) (View.ld x1 rSystem) (View.ld x2 rTable)) (k0_pay10 (View.ld x0 rCentre) (View.ld x1 rSystem) (View.ld x2 rTable))⟩]

/-- The displacement buffer after the body: its three stores, one per plane, the last first. -/
def outVec (x0 : Vec F S1x256x3 .f32) (x1 : Vec F S1x1024x3 .f32) (x2 : Vec F S1x256x1024 .i32) : Vec F S1x3x256x1024 .f32 :=
  View.canon [⟨rPlane2, k0_pay2 (k0_pay4 (View.ld x0 rCentre)) (k0_pay5 (View.ld x1 rSystem)) (k0_pay6 (View.ld x2 rTable))⟩,
    ⟨rPlane1, k0_pay11 (View.ld x0 rCentre) (View.ld x1 rSystem) (View.ld x2 rTable)⟩,
    ⟨rPlane0, k0_pay8 (View.ld x0 rCentre) (View.ld x1 rSystem) (View.ld x2 rTable)⟩]

/-- The single store covers the distance buffer. -/
theorem coverDist (p0 : Vec F S1x256x1024 .f32) (y : S1x256x1024.Idx) :
    ∃ pc ∈ ([⟨rTable, p0⟩] : List (View.Piece (Elt F) S1x256x1024 .f32)), y ∈ pc.1.set :=
  View.cover_of_tiled [⟨rTable, p0⟩] S1x256x1024.size (by rfl) y

/-- The three planes tile the displacement buffer. -/
theorem coverVec (p0 p1 p2 : Vec F S1x1x256x1024 .f32) (y : S1x3x256x1024.Idx) :
    ∃ pc ∈ ([⟨rPlane2, p0⟩, ⟨rPlane1, p1⟩, ⟨rPlane0, p2⟩] : List (View.Piece (Elt F) S1x3x256x1024 .f32)), y ∈ pc.1.set :=
  View.cover_of_tiled [⟨rPlane2, p0⟩, ⟨rPlane1, p1⟩, ⟨rPlane0, p2⟩] S1x1x256x1024.size (by rfl) y

/-! ## The body's triple -/

set_option maxHeartbeats 4000000 in
/-- The body on whole staging buffers, the inputs' at contents x0, x1, x2 and the outputs' at anything, runs to the
    continuation holding the inputs' as they were and the outputs' at outDist and outVec of the inputs'. -/
theorem sound_kernel (c : Dev nD) (E : Set ℕ) (i : grid0.Coords)
    (arg2 : Memref sig .tc .vmem S1x256x3 .f32) (harg2 : arg2.IsWhole) (arg3 : Memref sig .tc .vmem S1x1024x3 .f32) (harg3 : arg3.IsWhole)
    (arg4 : Memref sig .tc .vmem S1x256x1024 .i32) (harg4 : arg4.IsWhole) (arg5 : Memref sig .tc .vmem S1x256x1024 .f32) (harg5 : arg5.IsWhole)
    (arg6 : Memref sig .tc .vmem S1x3x256x1024 .f32) (harg6 : arg6.IsWhole)
    (x0 : Vec F S1x256x3 .f32) (x1 : Vec F S1x1024x3 .f32) (x2 : Vec F S1x256x1024 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outDist x0 x1 x2) ∗ owns (c : Thread nD τ) arg6 fullShare (outVec x0 x1 x2)) -∗ K ⟨⟩))
      ⊢ wp frame (wpE (defs₀ (F := F)) Variants.none c none) E (cc0__shell_kernel i arg2 harg2 arg3 harg3 arg4 harg4 arg5 harg5 arg6 harg6) K := by
  simp only [cc0__shell_kernel_eq_skeleton]; unfold cc0__shell_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverDist _)
  iexists _; isplitr
  swap; · iexact H4
  ipureintro
  exact View.read_writes_eq_canon _ _ _ (coverVec _ _ _)

end Cert.Kernel.Hand

end
-- ==== Proof.DataK.lean ====
/-
  The pipeline's account of the kernel: what the region finds in each array (the positions as launched, the
  neighbour table widened to 32-bit words by the one operation before the region), which block of each array a grid
  point reads (the 256 centre atoms of its tile; all 1024 atoms of its system; the tile's 256 x 1024 piece of the
  table), and what the body leaves in each staging buffer at each point. The positions array is read through two
  windows at once, so each holds half of it; the block of all 1024 atoms is fetched only when the system changes
  (every fourth point) and is found in place, unchanged, at the points between.
-/
import proofs.«149282_j17884243820650_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers at launch, as a valuation; -/
abbrev V₀ (c : Dev nD) : Valuation τ sig (Elt F) := fun b => m ((c : Dev nD), b)
/-- and when the region is entered: the table has been widened to words. -/
abbrev V (c : Dev nD) (b : Ref sig .tc) : Buf (Elt F) ((c : Thread nD τ).loc b) := StableHlo.after hostOps0 (V₀ m c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core c: the arrays as the region finds them; after the body at point t each input buffer at its block and
    each output buffer at what the body's stores leave; nothing carried between points but the scratch the kernel
    does not have; nothing owed; the positions array split in halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outDist (iblk m c 0 t) (iblk m c 1 t) (iblk m c 2 t)
    | ⟨4, _⟩ => outVec (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outDist (iblk m c 0 t) (iblk m c 1 t) (iblk m c 2 t) := by dsimp only [dats]
theorem after_4 (c : Dev nD) (t : Fin cfg0.N) :
    (dats m 0 c).after 4 t = outVec (iblk m c 0 t) (iblk m c 1 t) (iblk m c 2 t) := by dsimp only [dats]

/-- Each input's current staging buffer holds its block at every point, fetched there or not: where it is not
    fetched its block index has not moved since the point before, and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The whole program's run: the one operation that widens the neighbour table to words, the kernel region over its
  64 grid points, and the transposition of the displacement array from coordinate-major to coordinate-minor. The
  region is entered holding every unscoped buffer whole; the positions array, which two of the kernel's windows
  read at once, is split into two halves for the region and put together again at its exit, both windows having
  left it as it was. The run ends with the distance array at what the pipeline's write-backs leave, the final
  displacement array at the transposition of what they leave, and both arguments as launched.
-/
import proofs.«149282_j17884243820650_2_alg».proof.Proof.DataK
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-! ## Before the region: the table widened to words -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-! ## The buffers at the region's two ends -/

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg0, main_v0, main_v1_0, main_v1_1] (by decide) (by decide) _

/-- Every unscoped buffer held whole at the region's entry, one by one. -/
theorem entry_split (c : Dev nD) :
    (StableHlo.held (c : Thread nD τ) (Pipeline.ucRefs τ sig) (StableHlo.after hostOps0 (V₀ m c)) : sProp 𝕄)
      ⊢ iprop((((c : Thread nD τ).loc main_arg0) ↦{fullShare} V m c main_arg0) ∗ (((c : Thread nD τ).loc main_v0) ↦{fullShare} V m c main_v0)
          ∗ (((c : Thread nD τ).loc main_v1_0) ↦{fullShare} V m c main_v1_0) ∗ (((c : Thread nD τ).loc main_v1_1) ↦{fullShare} V m c main_v1_1)
          ∗ (((c : Thread nD τ).loc main_arg1) ↦{fullShare} V m c main_arg1) ∗ (((c : Thread nD τ).loc main_v2) ↦{fullShare} V m c main_v2)) := by
  rw [show (StableHlo.held (c : Thread nD τ) (Pipeline.ucRefs τ sig) (StableHlo.after hostOps0 (V₀ m c)) : sProp 𝕄) = unscopedBufs c (V m c) from (Pipeline.unscopedBufs_held c _).symm,
    Pipeline.unscopedBufs_split₀ cfgs 0 winFacts₀0.arr_unscoped c (V m c), arrBufs_eq, unscopedRest0_eq]
  iintro ⟨⟨H0, H1, H2, H3⟩, H4, H5⟩
  isplitl [H0]; · iexact H0
  isplitl [H1]; · iexact H1
  isplitl [H2]; · iexact H2
  isplitl [H3]; · iexact H3
  isplitl [H4]; · iexact H4
  iexact H5

/-- The pipeline's arrays one by one: the positions array at a half share for each of its two windows. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1_0) ↦{fullShare} G 3)
          ∗ (((c : Thread nD τ).loc main_v1_1) ↦{fullShare} G 4)) := by
  unfold Dat.arrays
  rw [bigSep_W0, (arr_whole0 0).set_eq_univ, (arr_whole0 2).set_eq_univ, (arr_whole0 3).set_eq_univ, (arr_whole0 4).set_eq_univ]
  rfl

/-- At the region's entry each array holds what the region finds. -/
theorem arrAt_zero (c : Dev nD) (w : Fin cfg0.W) : (dats m 0 c).arrAt w 0 = V m c (Pipeline.arrRef spec0 w) := A_eq m c w

/-- The two windows on the positions array never write it. -/
theorem arrAt_centre (c : Dev nD) (n : Nat) : (dats m 0 c).arrAt 0 n = V m c main_arg0 :=
  ((dats m 0 c).arrAt_in 0 rfl n).trans (A_eq m c 0)
theorem arrAt_system (c : Dev nD) (n : Nat) : (dats m 0 c).arrAt 1 n = V m c main_arg0 :=
  ((dats m 0 c).arrAt_in 1 rfl n).trans (A_eq m c 1)

/-! ## After the region: the displacement array transposed -/

/-- The two buffers the transposition touches. -/
def S1 : Finset (DevRef τ sig) := {Proc.devRef .tc main_v1_1, Proc.devRef .tc main_v2}

/-- Core c's buffers when the region is left: as it was entered, but for the coordinate-major displacement array,
    which holds what the write-backs of the 64 points leave. -/
def W1 (c : Dev nD) : Valuation τ sig (Elt F) :=
  Function.update (StableHlo.after hostOps0 (V₀ m c)) (Proc.devRef .tc main_v1_1) ((dats m 0 c).arrAt 4 cfg0.N)

/-- What rides beside those two buffers to the end: the positions whole again, the neighbour table, the distance array
    at what the write-backs leave, and the core owing nothing. -/
abbrev R1 (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v1_0) ↦{fullShare} (dats m 0 c).arrAt 3 cfg0.N) ∗ R c)

def seg1 : Pipeline.HostSeg (Name := ℕ) (U := UR sig nD τ) (pcfgs (F := F)) defs₀ 𝒱₀ L lv :=
  Pipeline.HostSeg.ofOps _ _ _ _ _ S1 hostOps1
    (by intro op h; rw [List.mem_singleton] at h; subst h; exact Finset.Subset.refl _)
    (by intro _ h; (repeat (cases h with | head => rfl | tail _ h => ?_)); exact nomatch h) (W1 m) (R1 m)

theorem held_S1 (c : Dev nD) (W : Valuation τ sig (Elt F)) :
    (StableHlo.held (c : Thread nD τ) S1 W : sProp 𝕄)
      = iprop((((c : Thread nD τ).loc main_v1_1) ↦{fullShare} W (Proc.devRef .tc main_v1_1)) ∗ (((c : Thread nD τ).loc main_v2) ↦{fullShare} W (Proc.devRef .tc main_v2))) := by
  unfold StableHlo.held S1
  rw [bigSep_insert (by rw [Finset.mem_singleton]; exact StableHlo.devRef_ne_of_ne (by decide)), bigSep_singleton]
  rfl

theorem W1_v11 (c : Dev nD) : W1 m c (Proc.devRef .tc main_v1_1) = (dats m 0 c).arrAt 4 cfg0.N := by
  unfold W1; exact Function.update_self ..
theorem W1_v2 (c : Dev nD) : W1 m c (Proc.devRef .tc main_v2) = V m c main_v2 := by
  unfold W1; exact Function.update_of_ne (StableHlo.devRef_ne_of_ne (by decide)) _ _

/-! ## The region -/

set_option backward.isDefEq.respectTransparency.types false in
/-- The region: entered from what the first operation left — the positions array dealt in halves to its two windows,
    the table's words and the two result arrays whole, the other two buffers passing by —, left with the positions
    array whole again and the two result arrays at what the write-backs leave. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W1 m c) ∗ R1 m c)
  X c := iprop(emp)
  Y c := iprop(emp)
  Z c := iprop((((c : Thread nD τ).loc main_arg1) ↦{fullShare} V m c main_arg1) ∗ (((c : Thread nD τ).loc main_v2) ↦{fullShare} V m c main_v2))
  hentry c := by
    rw [arrays_chain]
    rw [arrAt_zero, arrAt_zero, arrAt_zero, arrAt_zero, arrAt_zero]
    iintro ⟨⟨Hh, HO⟩, -, -⟩
    ihave H := (entry_split m c) $$ Hh
    icases H with ⟨Ha, Hv0, Hv10, Hv11, H1, H2⟩
    ihave Ha := (pointsTo_share (PosShare.mem_left_op_right fullShare)).1 $$ Ha
    icases Ha with ⟨HaL, HaR⟩
    imodintro
    isplitl [HaL HaR Hv0 Hv10 Hv11]
    · isplitl [HaL]; · iexact HaL
      isplitl [HaR]; · iexact HaR
      isplitl [Hv0]; · iexact Hv0
      isplitl [Hv10]; · iexact Hv10
      iexact Hv11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    iexact H2
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [show (dats m 0 c).Φ (Fin.last cfg0.N) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    rw [arrays_chain, held_S1, W1_v11, W1_v2]
    rw [arrAt_centre, arrAt_system]
    iintro ⟨⟨HaL, HaR, -, Hv10, Hv11⟩, HO, -, H1, H2⟩
    ihave Ha := (pointsTo_share (PosShare.mem_left_op_right fullShare)).2 $$ [HaL HaR]
    · isplitl [HaL] <;> iassumption
    imodintro
    isplitl [Hv11 H2]
    · isplitl [Hv11]; · iexact Hv11
      iexact H2
    isplitl [Ha]; · iexact Ha
    isplitl [H1]; · iexact H1
    isplitl [Hv10]; · iexact Hv10
    unfold Pipeline.Dat.owesAt Pipeline.owesWithin
    icases HO with ⟨%W, -, HO⟩; iexists W; iexact HO

/-! ## The run -/

/-- The first operation writes neither argument. -/
theorem V_arg0 (c : Dev nD) : V m c main_arg0 = m ((c : Thread nD τ).loc main_arg0) :=
  StableHlo.after_of_forall_not_mem (b := Proc.devRef .tc main_arg0) hostOps0 (V₀ m c) (fun op hop => by
    rw [List.mem_singleton] at hop; subst hop
    simp only [StableHlo.unary_writes, Finset.mem_singleton]
    exact StableHlo.devRef_ne_of_ne (by decide))
theorem V_arg1 (c : Dev nD) : V m c main_arg1 = m ((c : Thread nD τ).loc main_arg1) :=
  StableHlo.after_of_forall_not_mem (b := Proc.devRef .tc main_arg1) hostOps0 (V₀ m c) (fun op hop => by
    rw [List.mem_singleton] at hop; subst hop
    simp only [StableHlo.unary_writes, Finset.mem_singleton]
    exact StableHlo.devRef_ne_of_ne (by decide))

/-- The last operation leaves in the final displacement array the transposition of what the write-backs left. -/
theorem after1_v2 (c : Dev nD) :
    StableHlo.after hostOps1 (W1 m c) (Proc.devRef .tc main_v2)
      = transpose S16x1024x1024x3 [0, 2, 3, 1] ((dats m 0 c).arrAt 4 cfg0.N) transposes_S16x3x1024x1024_S16x1024x1024x3_0_2_3_1 := by
  simp only [StableHlo.after_cons, StableHlo.after_nil]
  rw [StableHlo.unary_result, W1_v11]

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What the last operation leaves for the end. -/
abbrev Tₙ (c : Dev nD) : sProp 𝕄 :=
  iprop(StableHlo.held (c : Thread nD τ) S1 (StableHlo.after hostOps1 (W1 m c))
    ∗ (((c : Thread nD τ).loc main_arg0) ↦{fullShare} V m c main_arg0) ∗ (((c : Thread nD τ).loc main_arg1) ↦{fullShare} V m c main_arg1)
    ∗ (((c : Thread nD τ).loc main_v1_0) ↦{fullShare} (dats m 0 c).arrAt 3 cfg0.N))

/-- The final memory: the distance array at what the write-backs leave, the displacement array at the transposition
    of what they leave, the arguments as launched. -/
def QC : PUnit × MemSt nD τ sig (Elt F) → Prop := fun r =>
  ∀ c : Dev nD, r.2.mem ((c : Thread nD τ).loc main_v1_0) = (dats m 0 c).arrAt 3 cfg0.N
    ∧ r.2.mem ((c : Thread nD τ).loc main_v2)
        = transpose S16x1024x1024x3 [0, 2, 3, 1] ((dats m 0 c).arrAt 4 cfg0.N) transposes_S16x3x1024x1024_S16x1024x1024x3_0_2_3_1
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of
    @main terminates, and every final state is as QC says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      refine (Entails.of_eq (ownU_emb₁ _)).trans ?_
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (W1 m c)) ∗ R1 m c)
        ⊢ iprop(Tₙ m c ∗ ∃ W, owes (c : Thread nD τ) (0 : CellTallies nD τ sig Unit) W)
      iintro ⟨Hh, Ha, H1, H3, HO⟩
      isplitr [HO]; swap; · iexact HO
      isplitl [Hh]; · iexact Hh
      isplitl [Ha]; · iexact Ha
      isplitl [H1]; · iexact H1
      iexact H3⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v1_0) = (dats m 0 c).arrAt 3 cfg0.N
      ∧ s.mem ((c : Thread nD τ).loc main_v2)
          = transpose S16x1024x1024x3 [0, 2, 3, 1] ((dats m 0 c).arrAt 4 cfg0.N) transposes_S16x3x1024x1024_S16x1024x1024x3_0_2_3_1
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_S1, after1_v2, V_arg0, V_arg1]
      iintro ⟨⟨⟨-, H2⟩, Ha, H1, H3⟩, HSI⟩
      icombine HSI H2 gives %h2
      icombine HSI Ha gives %ha
      icombine HSI H1 gives %h1
      icombine HSI H3 gives %h3
      imodintro
      isplitr; · ipureintro; exact ⟨Buf.eq_of_forall_mem_univ h3, Buf.eq_of_forall_mem_univ h2, Buf.eq_of_forall_mem_univ ha, Buf.eq_of_forall_mem_univ h1⟩
      iexact HSI)
    (hQ := fun _ h => h)

/-- info: 'Cert.Kernel.Hand.run_main' depends on axioms: [propext, Classical.choice, Quot.sound] -/
#guard_msgs in #print axioms run_main

end Cert.Kernel.Hand

end
-- ==== Proof.BodyI.lean ====
/-
  The kernel body as one step: on whole staging buffers holding a block of centre-atom positions (256 atoms), the
  system's positions (1024 atoms) and a 256 x 1024 block of the neighbour table, the body leaves the three input
  buffers as they were, fills the distance buffer with one store, and fills the displacement buffer, laid out
  coordinate-major as 3 planes of 256 x 1024, with one store per plane. What each output buffer then holds is the
  overlay of those stores on anything; the three planes tile the displacement buffer and the single store covers
  the distance buffer, so nothing of the previous contents is left.
-/
import proofs.«149282_j17884243820650_2_alg».proof.Proof.Gen.KernelIdeal.Launch
import proofs.«149282_j17884243820650_2_alg».proof.Proof.Gen.KernelIdeal.Skeleton
import proofs.«149282_j17884243820650_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole block of centre atoms, of the system's atoms, and of the table (also the whole distance block). -/
abbrev rCentre : Rect S1x256x3 := Rect.unit (s := S1x256x3) ![0, 0, 0] S1x256x3.size inb_S1x256x3_S1x256x3_0_0_0
abbrev rSystem : Rect S1x1024x3 := Rect.unit (s := S1x1024x3) ![0, 0, 0] S1x1024x3.size inb_S1x1024x3_S1x1024x3_0_0_0
abbrev rTable : Rect S1x256x1024 := Rect.unit (s := S1x256x1024) ![0, 0, 0] S1x256x1024.size inb_S1x256x1024_S1x256x1024_0_0_0
/-- Plane c of the displacement block: coordinate c of every pair. -/
abbrev rPlane0 : Rect S1x3x256x1024 := Rect.unit (s := S1x3x256x1024) ![0, 0, 0, 0] S1x1x256x1024.size inb_S1x3x256x1024_S1x1x256x1024_0_0_0_0
abbrev rPlane1 : Rect S1x3x256x1024 := Rect.unit (s := S1x3x256x1024) ![0, 1, 0, 0] S1x1x256x1024.size inb_S1x3x256x1024_S1x1x256x1024_0_1_0_0
abbrev rPlane2 : Rect S1x3x256x1024 := Rect.unit (s := S1x3x256x1024) ![0, 2, 0, 0] S1x1x256x1024.size inb_S1x3x256x1024_S1x1x256x1024_0_2_0_0

/-! ## What the body leaves in the two output buffers -/

/-- The distance buffer after the body: its one store, over the three input blocks. -/
def outDist (x0 : Vec F S1x256x3 .f32) (x1 : Vec F S1x1024x3 .f32) (x2 : Vec F S1x256x1024 .i32) : Vec F S1x256x1024 .f32 :=
  View.canon [⟨rTable, k0_pay3 (k0_pay4 (View.ld x0 rCentre)) (k0_pay5 (View.ld x1 rSystem)) (k0_pay6 (View.ld x2 rTable))
    (k0_pay9 (View.ld x0 rCentre) (View.ld x1 rSystem) (View.ld x2 rTable)) (k0_pay10 (View.ld x0 rCentre) (View.ld x1 rSystem) (View.ld x2 rTable))⟩]

/-- The displacement buffer after the body: its three stores, one per plane, the last first. -/
def outVec (x0 : Vec F S1x256x3 .f32) (x1 : Vec F S1x1024x3 .f32) (x2 : Vec F S1x256x1024 .i32) : Vec F S1x3x256x1024 .f32 :=
  View.canon [⟨rPlane2, k0_pay2 (k0_pay4 (View.ld x0 rCentre)) (k0_pay5 (View.ld x1 rSystem)) (k0_pay6 (View.ld x2 rTable))⟩,
    ⟨rPlane1, k0_pay11 (View.ld x0 rCentre) (View.ld x1 rSystem) (View.ld x2 rTable)⟩,
    ⟨rPlane0, k0_pay8 (View.ld x0 rCentre) (View.ld x1 rSystem) (View.ld x2 rTable)⟩]

/-- The single store covers the distance buffer. -/
theorem coverDist (p0 : Vec F S1x256x1024 .f32) (y : S1x256x1024.Idx) :
    ∃ pc ∈ ([⟨rTable, p0⟩] : List (View.Piece (Elt F) S1x256x1024 .f32)), y ∈ pc.1.set :=
  View.cover_of_tiled [⟨rTable, p0⟩] S1x256x1024.size (by rfl) y

/-- The three planes tile the displacement buffer. -/
theorem coverVec (p0 p1 p2 : Vec F S1x1x256x1024 .f32) (y : S1x3x256x1024.Idx) :
    ∃ pc ∈ ([⟨rPlane2, p0⟩, ⟨rPlane1, p1⟩, ⟨rPlane0, p2⟩] : List (View.Piece (Elt F) S1x3x256x1024 .f32)), y ∈ pc.1.set :=
  View.cover_of_tiled [⟨rPlane2, p0⟩, ⟨rPlane1, p1⟩, ⟨rPlane0, p2⟩] S1x1x256x1024.size (by rfl) y

/-! ## The body's triple -/

set_option maxHeartbeats 4000000 in
/-- The body on whole staging buffers, the inputs' at contents x0, x1, x2 and the outputs' at anything, runs to the
    continuation holding the inputs' as they were and the outputs' at outDist and outVec of the inputs'. -/
theorem sound_kernel (c : Dev nD) (E : Set ℕ) (i : grid0.Coords)
    (arg2 : Memref sig .tc .vmem S1x256x3 .f32) (harg2 : arg2.IsWhole) (arg3 : Memref sig .tc .vmem S1x1024x3 .f32) (harg3 : arg3.IsWhole)
    (arg4 : Memref sig .tc .vmem S1x256x1024 .i32) (harg4 : arg4.IsWhole) (arg5 : Memref sig .tc .vmem S1x256x1024 .f32) (harg5 : arg5.IsWhole)
    (arg6 : Memref sig .tc .vmem S1x3x256x1024 .f32) (harg6 : arg6.IsWhole)
    (x0 : Vec F S1x256x3 .f32) (x1 : Vec F S1x1024x3 .f32) (x2 : Vec F S1x256x1024 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outDist x0 x1 x2) ∗ owns (c : Thread nD τ) arg6 fullShare (outVec x0 x1 x2)) -∗ K ⟨⟩))
      ⊢ wp frame (wpE (defs₀ (F := F)) Variants.none c none) E (cc0__shell_kernel i arg2 harg2 arg3 harg3 arg4 harg4 arg5 harg5 arg6 harg6) K := by
  simp only [cc0__shell_kernel_eq_skeleton]; unfold cc0__shell_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverDist _)
  iexists _; isplitr
  swap; · iexact H4
  ipureintro
  exact View.read_writes_eq_canon _ _ _ (coverVec _ _ _)

end Cert.KernelIdeal.Hand

end
-- ==== Proof.DataI.lean ====
/-
  The pipeline's account of the kernel: what the region finds in each array (the positions as launched, the
  neighbour table widened to 32-bit words by the one operation before the region), which block of each array a grid
  point reads (the 256 centre atoms of its tile; all 1024 atoms of its system; the tile's 256 x 1024 piece of the
  table), and what the body leaves in each staging buffer at each point. The positions array is read through two
  windows at once, so each holds half of it; the block of all 1024 atoms is fetched only when the system changes
  (every fourth point) and is found in place, unchanged, at the points between.
-/
import proofs.«149282_j17884243820650_2_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers at launch, as a valuation; -/
abbrev V₀ (c : Dev nD) : Valuation τ sig (Elt F) := fun b => m ((c : Dev nD), b)
/-- and when the region is entered: the table has been widened to words. -/
abbrev V (c : Dev nD) (b : Ref sig .tc) : Buf (Elt F) ((c : Thread nD τ).loc b) := StableHlo.after hostOps0 (V₀ m c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core c: the arrays as the region finds them; after the body at point t each input buffer at its block and
    each output buffer at what the body's stores leave; nothing carried between points but the scratch the kernel
    does not have; nothing owed; the positions array split in halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outDist (iblk m c 0 t) (iblk m c 1 t) (iblk m c 2 t)
    | ⟨4, _⟩ => outVec (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outDist (iblk m c 0 t) (iblk m c 1 t) (iblk m c 2 t) := by dsimp only [dats]
theorem after_4 (c : Dev nD) (t : Fin cfg0.N) :
    (dats m 0 c).after 4 t = outVec (iblk m c 0 t) (iblk m c 1 t) (iblk m c 2 t) := by dsimp only [dats]

/-- Each input's current staging buffer holds its block at every point, fetched there or not: where it is not
    fetched its block index has not moved since the point before, and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The whole program's run: the one operation that widens the neighbour table to words, the kernel region over its
  64 grid points, and the transposition of the displacement array from coordinate-major to coordinate-minor. The
  region is entered holding every unscoped buffer whole; the positions array, which two of the kernel's windows
  read at once, is split into two halves for the region and put together again at its exit, both windows having
  left it as it was. The run ends with the distance array at what the pipeline's write-backs leave, the final
  displacement array at the transposition of what they leave, and both arguments as launched.
-/
import proofs.«149282_j17884243820650_2_alg».proof.Proof.DataI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-! ## Before the region: the table widened to words -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-! ## The buffers at the region's two ends -/

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg0, main_v0, main_v1_0, main_v1_1] (by decide) (by decide) _

/-- Every unscoped buffer held whole at the region's entry, one by one. -/
theorem entry_split (c : Dev nD) :
    (StableHlo.held (c : Thread nD τ) (Pipeline.ucRefs τ sig) (StableHlo.after hostOps0 (V₀ m c)) : sProp 𝕄)
      ⊢ iprop((((c : Thread nD τ).loc main_arg0) ↦{fullShare} V m c main_arg0) ∗ (((c : Thread nD τ).loc main_v0) ↦{fullShare} V m c main_v0)
          ∗ (((c : Thread nD τ).loc main_v1_0) ↦{fullShare} V m c main_v1_0) ∗ (((c : Thread nD τ).loc main_v1_1) ↦{fullShare} V m c main_v1_1)
          ∗ (((c : Thread nD τ).loc main_arg1) ↦{fullShare} V m c main_arg1) ∗ (((c : Thread nD τ).loc main_v2) ↦{fullShare} V m c main_v2)) := by
  rw [show (StableHlo.held (c : Thread nD τ) (Pipeline.ucRefs τ sig) (StableHlo.after hostOps0 (V₀ m c)) : sProp 𝕄) = unscopedBufs c (V m c) from (Pipeline.unscopedBufs_held c _).symm,
    Pipeline.unscopedBufs_split₀ cfgs 0 winFacts₀0.arr_unscoped c (V m c), arrBufs_eq, unscopedRest0_eq]
  iintro ⟨⟨H0, H1, H2, H3⟩, H4, H5⟩
  isplitl [H0]; · iexact H0
  isplitl [H1]; · iexact H1
  isplitl [H2]; · iexact H2
  isplitl [H3]; · iexact H3
  isplitl [H4]; · iexact H4
  iexact H5

/-- The pipeline's arrays one by one: the positions array at a half share for each of its two windows. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1_0) ↦{fullShare} G 3)
          ∗ (((c : Thread nD τ).loc main_v1_1) ↦{fullShare} G 4)) := by
  unfold Dat.arrays
  rw [bigSep_W0, (arr_whole0 0).set_eq_univ, (arr_whole0 2).set_eq_univ, (arr_whole0 3).set_eq_univ, (arr_whole0 4).set_eq_univ]
  rfl

/-- At the region's entry each array holds what the region finds. -/
theorem arrAt_zero (c : Dev nD) (w : Fin cfg0.W) : (dats m 0 c).arrAt w 0 = V m c (Pipeline.arrRef spec0 w) := A_eq m c w

/-- The two windows on the positions array never write it. -/
theorem arrAt_centre (c : Dev nD) (n : Nat) : (dats m 0 c).arrAt 0 n = V m c main_arg0 :=
  ((dats m 0 c).arrAt_in 0 rfl n).trans (A_eq m c 0)
theorem arrAt_system (c : Dev nD) (n : Nat) : (dats m 0 c).arrAt 1 n = V m c main_arg0 :=
  ((dats m 0 c).arrAt_in 1 rfl n).trans (A_eq m c 1)

/-! ## After the region: the displacement array transposed -/

/-- The two buffers the transposition touches. -/
def S1 : Finset (DevRef τ sig) := {Proc.devRef .tc main_v1_1, Proc.devRef .tc main_v2}

/-- Core c's buffers when the region is left: as it was entered, but for the coordinate-major displacement array,
    which holds what the write-backs of the 64 points leave. -/
def W1 (c : Dev nD) : Valuation τ sig (Elt F) :=
  Function.update (StableHlo.after hostOps0 (V₀ m c)) (Proc.devRef .tc main_v1_1) ((dats m 0 c).arrAt 4 cfg0.N)

/-- What rides beside those two buffers to the end: the positions whole again, the neighbour table, the distance array
    at what the write-backs leave, and the core owing nothing. -/
abbrev R1 (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v1_0) ↦{fullShare} (dats m 0 c).arrAt 3 cfg0.N) ∗ R c)

def seg1 : Pipeline.HostSeg (Name := ℕ) (U := UR sig nD τ) (pcfgs (F := F)) defs₀ 𝒱₀ L lv :=
  Pipeline.HostSeg.ofOps _ _ _ _ _ S1 hostOps1
    (by intro op h; rw [List.mem_singleton] at h; subst h; exact Finset.Subset.refl _)
    (by intro _ h; (repeat (cases h with | head => rfl | tail _ h => ?_)); exact nomatch h) (W1 m) (R1 m)

theorem held_S1 (c : Dev nD) (W : Valuation τ sig (Elt F)) :
    (StableHlo.held (c : Thread nD τ) S1 W : sProp 𝕄)
      = iprop((((c : Thread nD τ).loc main_v1_1) ↦{fullShare} W (Proc.devRef .tc main_v1_1)) ∗ (((c : Thread nD τ).loc main_v2) ↦{fullShare} W (Proc.devRef .tc main_v2))) := by
  unfold StableHlo.held S1
  rw [bigSep_insert (by rw [Finset.mem_singleton]; exact StableHlo.devRef_ne_of_ne (by decide)), bigSep_singleton]
  rfl

theorem W1_v11 (c : Dev nD) : W1 m c (Proc.devRef .tc main_v1_1) = (dats m 0 c).arrAt 4 cfg0.N := by
  unfold W1; exact Function.update_self ..
theorem W1_v2 (c : Dev nD) : W1 m c (Proc.devRef .tc main_v2) = V m c main_v2 := by
  unfold W1; exact Function.update_of_ne (StableHlo.devRef_ne_of_ne (by decide)) _ _

/-! ## The region -/

set_option backward.isDefEq.respectTransparency.types false in
/-- The region: entered from what the first operation left — the positions array dealt in halves to its two windows,
    the table's words and the two result arrays whole, the other two buffers passing by —, left with the positions
    array whole again and the two result arrays at what the write-backs leave. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W1 m c) ∗ R1 m c)
  X c := iprop(emp)
  Y c := iprop(emp)
  Z c := iprop((((c : Thread nD τ).loc main_arg1) ↦{fullShare} V m c main_arg1) ∗ (((c : Thread nD τ).loc main_v2) ↦{fullShare} V m c main_v2))
  hentry c := by
    rw [arrays_chain]
    rw [arrAt_zero, arrAt_zero, arrAt_zero, arrAt_zero, arrAt_zero]
    iintro ⟨⟨Hh, HO⟩, -, -⟩
    ihave H := (entry_split m c) $$ Hh
    icases H with ⟨Ha, Hv0, Hv10, Hv11, H1, H2⟩
    ihave Ha := (pointsTo_share (PosShare.mem_left_op_right fullShare)).1 $$ Ha
    icases Ha with ⟨HaL, HaR⟩
    imodintro
    isplitl [HaL HaR Hv0 Hv10 Hv11]
    · isplitl [HaL]; · iexact HaL
      isplitl [HaR]; · iexact HaR
      isplitl [Hv0]; · iexact Hv0
      isplitl [Hv10]; · iexact Hv10
      iexact Hv11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    iexact H2
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [show (dats m 0 c).Φ (Fin.last cfg0.N) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    rw [arrays_chain, held_S1, W1_v11, W1_v2]
    rw [arrAt_centre, arrAt_system]
    iintro ⟨⟨HaL, HaR, -, Hv10, Hv11⟩, HO, -, H1, H2⟩
    ihave Ha := (pointsTo_share (PosShare.mem_left_op_right fullShare)).2 $$ [HaL HaR]
    · isplitl [HaL] <;> iassumption
    imodintro
    isplitl [Hv11 H2]
    · isplitl [Hv11]; · iexact Hv11
      iexact H2
    isplitl [Ha]; · iexact Ha
    isplitl [H1]; · iexact H1
    isplitl [Hv10]; · iexact Hv10
    unfold Pipeline.Dat.owesAt Pipeline.owesWithin
    icases HO with ⟨%W, -, HO⟩; iexists W; iexact HO

/-! ## The run -/

/-- The first operation writes neither argument. -/
theorem V_arg0 (c : Dev nD) : V m c main_arg0 = m ((c : Thread nD τ).loc main_arg0) :=
  StableHlo.after_of_forall_not_mem (b := Proc.devRef .tc main_arg0) hostOps0 (V₀ m c) (fun op hop => by
    rw [List.mem_singleton] at hop; subst hop
    simp only [StableHlo.unary_writes, Finset.mem_singleton]
    exact StableHlo.devRef_ne_of_ne (by decide))
theorem V_arg1 (c : Dev nD) : V m c main_arg1 = m ((c : Thread nD τ).loc main_arg1) :=
  StableHlo.after_of_forall_not_mem (b := Proc.devRef .tc main_arg1) hostOps0 (V₀ m c) (fun op hop => by
    rw [List.mem_singleton] at hop; subst hop
    simp only [StableHlo.unary_writes, Finset.mem_singleton]
    exact StableHlo.devRef_ne_of_ne (by decide))

/-- The last operation leaves in the final displacement array the transposition of what the write-backs left. -/
theorem after1_v2 (c : Dev nD) :
    StableHlo.after hostOps1 (W1 m c) (Proc.devRef .tc main_v2)
      = transpose S16x1024x1024x3 [0, 2, 3, 1] ((dats m 0 c).arrAt 4 cfg0.N) transposes_S16x3x1024x1024_S16x1024x1024x3_0_2_3_1 := by
  simp only [StableHlo.after_cons, StableHlo.after_nil]
  rw [StableHlo.unary_result, W1_v11]

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What the last operation leaves for the end. -/
abbrev Tₙ (c : Dev nD) : sProp 𝕄 :=
  iprop(StableHlo.held (c : Thread nD τ) S1 (StableHlo.after hostOps1 (W1 m c))
    ∗ (((c : Thread nD τ).loc main_arg0) ↦{fullShare} V m c main_arg0) ∗ (((c : Thread nD τ).loc main_arg1) ↦{fullShare} V m c main_arg1)
    ∗ (((c : Thread nD τ).loc main_v1_0) ↦{fullShare} (dats m 0 c).arrAt 3 cfg0.N))

/-- The final memory: the distance array at what the write-backs leave, the displacement array at the transposition
    of what they leave, the arguments as launched. -/
def QC : PUnit × MemSt nD τ sig (Elt F) → Prop := fun r =>
  ∀ c : Dev nD, r.2.mem ((c : Thread nD τ).loc main_v1_0) = (dats m 0 c).arrAt 3 cfg0.N
    ∧ r.2.mem ((c : Thread nD τ).loc main_v2)
        = transpose S16x1024x1024x3 [0, 2, 3, 1] ((dats m 0 c).arrAt 4 cfg0.N) transposes_S16x3x1024x1024_S16x1024x1024x3_0_2_3_1
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of
    @main terminates, and every final state is as QC says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      refine (Entails.of_eq (ownU_emb₁ _)).trans ?_
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (W1 m c)) ∗ R1 m c)
        ⊢ iprop(Tₙ m c ∗ ∃ W, owes (c : Thread nD τ) (0 : CellTallies nD τ sig Unit) W)
      iintro ⟨Hh, Ha, H1, H3, HO⟩
      isplitr [HO]; swap; · iexact HO
      isplitl [Hh]; · iexact Hh
      isplitl [Ha]; · iexact Ha
      isplitl [H1]; · iexact H1
      iexact H3⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v1_0) = (dats m 0 c).arrAt 3 cfg0.N
      ∧ s.mem ((c : Thread nD τ).loc main_v2)
          = transpose S16x1024x1024x3 [0, 2, 3, 1] ((dats m 0 c).arrAt 4 cfg0.N) transposes_S16x3x1024x1024_S16x1024x1024x3_0_2_3_1
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_S1, after1_v2, V_arg0, V_arg1]
      iintro ⟨⟨⟨-, H2⟩, Ha, H1, H3⟩, HSI⟩
      icombine HSI H2 gives %h2
      icombine HSI Ha gives %ha
      icombine HSI H1 gives %h1
      icombine HSI H3 gives %h3
      imodintro
      isplitr; · ipureintro; exact ⟨Buf.eq_of_forall_mem_univ h3, Buf.eq_of_forall_mem_univ h2, Buf.eq_of_forall_mem_univ ha, Buf.eq_of_forall_mem_univ h1⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.Spec.lean ====
/-
  The function both programs compute, stated once over the extended reals, index by index.

  For a batch of 16 systems of 1024 atoms with positions P[b, a, ·] in R^3 and a neighbour table M[b, i, j] in {0, 1}:
  the masked displacement from the centre atom i to the neighbour j is
      vec[b, i, j, c] = (P[b, j, c] - P[b, i, c]) * M[b, i, j],
  its squared length is sq = 0 + sum over c of vec_c * vec_c, and the distance is sqrt(sq) where sq > 0 and 0 elsewhere
  (the inner guard replaces a non-positive sq by 1 before the root is taken, so that the root is never taken at 0).
  Nothing here mentions a program: the two sides are each shown to be this function.
-/
import Idealize.ShloMosaic.PureOps.Ideal
import Idealize.ShloMosaic.Lib.ValueIdx

noncomputable section

namespace Cert.Shell

open Idealize.ShloMosaic Idealize.ShloMosaic.ValueIdx

/-- Positions: 16 systems, 1024 atoms, 3 coordinates. -/
abbrev PosArr : Type := (⟨3, ![16, 1024, 3]⟩ : Shape).Idx → EReal
/-- The neighbour table, one bit per ordered pair of atoms of a system. -/
abbrev MaskArr : Type := (⟨3, ![16, 1024, 1024]⟩ : Shape).Idx → BitVec 1

/-- A mask bit as a number: 0 or 1. -/
def maskf (b : BitVec 1) : EReal := ((b.toNat : ℝ) : EReal)

/-- The word 0.0 and the word 1.0 of the 32-bit format, as extended reals. -/
def zeroW : EReal := Ideal.ofBits .f32 0x00000000#32
def oneW : EReal := Ideal.ofBits .f32 0x3F800000#32

/-- Coordinate c of the masked displacement from centre atom i to neighbour j in system b. -/
def diff (P : PosArr) (M : MaskArr) (b : Fin 16) (i j : Fin 1024) (c : Fin 3) : EReal :=
  (P (ix3 b j c) - P (ix3 b i c)) * maskf (M (ix3 b i j))

/-- Its squared length, summed from the zero word. -/
def sqLen (P : PosArr) (M : MaskArr) (b : Fin 16) (i j : Fin 1024) : EReal :=
  zeroW + ∑ c : Fin 3, diff P M b i j c * diff P M b i j c

/-- The guarded root of a squared length s: sqrt(s) where s > 0 (the root taken of s there, of 1 elsewhere), else 0. -/
def guardedRoot (s : EReal) : EReal :=
  Scalar.select (FloatOps.cmpf (F := Ideal) (φ := .f32) .ogt s zeroW)
    (Ideal.sqrt (Scalar.select (FloatOps.cmpf (F := Ideal) (φ := .f32) .ogt s zeroW) s oneW)) zeroW

/-- The distance from atom i to atom j of system b. -/
def distAt (P : PosArr) (M : MaskArr) (b : Fin 16) (i j : Fin 1024) : EReal := guardedRoot (sqLen P M b i j)

/-- The two results as whole arrays. -/
def dist (P : PosArr) (M : MaskArr) : (⟨3, ![16, 1024, 1024]⟩ : Shape).Idx → EReal :=
  fun x => distAt P M (x 0) (x 1) (x 2)
def vec (P : PosArr) (M : MaskArr) : (⟨4, ![16, 1024, 1024, 3]⟩ : Shape).Idx → EReal :=
  fun x => diff P M (x 0) (x 1) (x 2) (x 3)

theorem dist_ix (P : PosArr) (M : MaskArr) (b : Fin 16) (i j : Fin 1024) : dist P M (ix3 b i j) = distAt P M b i j := rfl
theorem vec_ix (P : PosArr) (M : MaskArr) (b : Fin 16) (i j : Fin 1024) (c : Fin 3) : vec P M (ix4 b i j c) = diff P M b i j c := rfl

end Cert.Shell

end
-- ==== Proof.PayIdeal.lean ====
/-
  The body's arithmetic at the ideal instance, read index by index.

  The body loads three blocks: the centre atoms' positions x0 : [1, 256, 3], the whole system's positions
  x1 : [1, 1024, 3] and the neighbour words x2 : [1, 256, 1024]. For each coordinate c it cuts column c of both position
  blocks, spreads the system's column along the rows and the centres' column along the columns, subtracts, and multiplies
  by the mask read as a number (1 where the word is not zero, else 0). The three masked differences are stored, and the
  guarded root of the sum of their squares, summed from the zero word, is stored as the distance.
  Here each stored value is written at an index (r, j) as a function of the three loaded blocks.
-/
import proofs.«149282_j17884243820650_2_alg».proof.Proof.Gen.KernelIdeal.Skeleton
import proofs.«149282_j17884243820650_2_alg».proof.Proof.Spec
import Idealize.ShloMosaic.Lib.ValueIdx
import Idealize.ShloMosaic.Lib.ValueLayout
import Idealize.ShloMosaic.Lib.Pipeline.Value
import Idealize.ShloMosaic.PureOps.Ideal

noncomputable section

namespace Cert.KernelIdeal.PayValue

open Cert.KernelIdeal Cert.KernelIdeal.Gen Idealize.ShloMosaic Idealize.ShloMosaic.ValueIdx

/-! ## The mask word as a number -/

/-- A mask word as the body reads it: 1 where the word is not zero, else 0. -/
def maskw (w : BitVec 32) : EReal := FloatOps.sitofp (F := Ideal) .f32 ((IntOp.cmpi .ne w 0#32).setWidth 32)

/-- A mask bit widened to a word is read as the bit's number. -/
theorem maskw_of_bit (b : BitVec 1) : maskw (b.setWidth 32) = Cert.Shell.maskf b := by
  rcases BitVec.eq_zero_or_eq_one b with h | h
  · subst h
    show (((((IntOp.cmpi .ne ((0#1).setWidth 32) 0#32).setWidth 32).toInt : ℝ)) : EReal) = ((((0#1).toNat : ℝ)) : EReal)
    have e : ((IntOp.cmpi .ne ((0#1).setWidth 32) 0#32).setWidth 32).toInt = 0 := by decide
    rw [e]; simp
  · subst h
    show (((((IntOp.cmpi .ne ((1#1).setWidth 32) 0#32).setWidth 32).toInt : ℝ)) : EReal) = ((((1#1).toNat : ℝ)) : EReal)
    have e : ((IntOp.cmpi .ne ((1#1).setWidth 32) 0#32).setWidth 32).toInt = 1 := by decide
    rw [e]; simp

/-! ## Layout operations at explicit coordinates -/

section Layout
variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

end Layout

/-! ## One coordinate's column of each position block, spread over the tile -/

/-- Column `c` of the centres' block, kept as a column and spread along the tile's columns, reads at `(r, j)` the
    coordinate `c` of centre `r`. -/
theorem centreCol_apply (v1 : FVec Ideal S256x3 .f32) (o : Nat) (hs : S256x3.Slices ![0, o] S256x1) (c : Fin 3) (hc : c.val = o)
    (r : Fin 256) (j : Fin 1024) :
    broadcastTo S256x1024
      (shapeCast S256x1 (shapeCast S256 (extractStridedSlice S256x1 ![0, o] v1 hs) shapeCasts_S256x1_S256) shapeCasts_S256_S256x1)
      broadcasts_S256x1_S256x1024 (ix2 r j) = v1 (ix2 r c) := by
  refine (broadcastTo_a1_ab_apply _ _ r j).trans ?_
  refine (shapeCast_a_a1_apply _ _ r (0 : Fin 1)).trans ?_
  refine (shapeCast_a1_a_apply _ _ r).trans ?_
  exact slice2_axis1_apply o v1 hs r (0 : Fin 1) c (by rw [hc]; rfl)

/-- Column `c` of the system's block, laid as a row and spread along the tile's rows, reads at `(r, j)` the
    coordinate `c` of atom `j`. -/
theorem systemCol_apply (v3 : FVec Ideal S1024x3 .f32) (o : Nat) (hs : S1024x3.Slices ![0, o] S1024x1) (c : Fin 3) (hc : c.val = o)
    (r : Fin 256) (j : Fin 1024) :
    broadcastTo S256x1024
      (shapeCast S1x1024 (shapeCast S1024 (extractStridedSlice S1024x1 ![0, o] v3 hs) shapeCasts_S1024x1_S1024) shapeCasts_S1024_S1x1024)
      broadcasts_S1x1024_S256x1024 (ix2 r j) = v3 (ix2 j c) := by
  refine (broadcastTo_1b_ab_apply _ _ r j).trans ?_
  refine (shapeCast_a_1a_apply _ _ (0 : Fin 1) j).trans ?_
  refine (shapeCast_a1_a_apply _ _ j).trans ?_
  exact slice2_axis1_apply o v3 hs j (0 : Fin 1) c (by rw [hc]; rfl)

/-- The masked difference along one coordinate, over the tile: the system's column less the centres' column, times the
    mask. -/
theorem maskedDiff_apply (v1 : FVec Ideal S256x3 .f32) (v3 : FVec Ideal S1024x3 .f32) (v8 : FVec Ideal S256x1024 .f32) (o : Nat)
    (hs1 : S256x3.Slices ![0, o] S256x1) (hs3 : S1024x3.Slices ![0, o] S1024x1) (c : Fin 3) (hc : c.val = o)
    (r : Fin 256) (j : Fin 1024) :
    mulf (subf
        (broadcastTo S256x1024
          (shapeCast S1x1024 (shapeCast S1024 (extractStridedSlice S1024x1 ![0, o] v3 hs3) shapeCasts_S1024x1_S1024) shapeCasts_S1024_S1x1024)
          broadcasts_S1x1024_S256x1024)
        (broadcastTo S256x1024
          (shapeCast S256x1 (shapeCast S256 (extractStridedSlice S256x1 ![0, o] v1 hs1) shapeCasts_S256x1_S256) shapeCasts_S256_S256x1)
          broadcasts_S256x1_S256x1024)) v8 (ix2 r j)
      = (v3 (ix2 j c) - v1 (ix2 r c)) * v8 (ix2 r j) :=
  congrArg₂ (fun a b : EReal => (a - b) * v8 (ix2 r j)) (systemCol_apply v3 o hs3 c hc r j) (centreCol_apply v1 o hs1 c hc r j)

/-! ## The loaded blocks without their unit axis, and the mask as numbers -/

/-- The centres' block without its unit axis. -/
theorem pay4_apply (x0 : Vec Ideal S1x256x3 .f32) (r : Fin 256) (c : Fin 3) :
    Gen.k0_pay4 (F := Ideal) x0 (ix2 r c) = x0 (ix3 (0 : Fin 1) r c) :=
  shapeCast_1ab_ab_apply x0 shapeCasts_S1x256x3_S256x3 r c

/-- The system's block without its unit axis. -/
theorem pay5_apply (x1 : Vec Ideal S1x1024x3 .f32) (j : Fin 1024) (c : Fin 3) :
    Gen.k0_pay5 (F := Ideal) x1 (ix2 j c) = x1 (ix3 (0 : Fin 1) j c) :=
  shapeCast_1ab_ab_apply x1 shapeCasts_S1x1024x3_S1024x3 j c

/-- The mask block without its unit axis, each word read as a number. -/
theorem pay6_apply (x2 : Vec Ideal S1x256x1024 .i32) (r : Fin 256) (j : Fin 1024) :
    Gen.k0_pay6 (F := Ideal) x2 (ix2 r j) = maskw (x2 (ix3 (0 : Fin 1) r j)) := by
  show maskw (shapeCast S256x1024 x2 shapeCasts_S1x256x1024_S256x1024 (ix2 r j)) = _
  exact congrArg maskw (shapeCast_1ab_ab_apply x2 shapeCasts_S1x256x1024_S256x1024 r j)

/-! ## The masked differences -/

/-- The masked difference of the body along coordinate `c`, at row `r` of the centre block and atom `j` of the system's
    block. -/
def dcoord (x0 : Vec Ideal S1x256x3 .f32) (x1 : Vec Ideal S1x1024x3 .f32) (x2 : Vec Ideal S1x256x1024 .i32)
    (r : Fin 256) (j : Fin 1024) (c : Fin 3) : EReal :=
  (x1 (ix3 (0 : Fin 1) j c) - x0 (ix3 (0 : Fin 1) r c)) * maskw (x2 (ix3 (0 : Fin 1) r j))

/-- A masked difference over the blocks without their unit axes is `dcoord`. -/
theorem dcoord_of_pays (x0 : Vec Ideal S1x256x3 .f32) (x1 : Vec Ideal S1x1024x3 .f32) (x2 : Vec Ideal S1x256x1024 .i32)
    (r : Fin 256) (j : Fin 1024) (c : Fin 3) :
    (Gen.k0_pay5 (F := Ideal) x1 (ix2 j c) - Gen.k0_pay4 (F := Ideal) x0 (ix2 r c)) * Gen.k0_pay6 (F := Ideal) x2 (ix2 r j)
      = dcoord x0 x1 x2 r j c := by
  rw [pay4_apply, pay5_apply, pay6_apply]; rfl

/-- Coordinate 0 over the tile. -/
theorem pay7_apply (x0 : Vec Ideal S1x256x3 .f32) (x1 : Vec Ideal S1x1024x3 .f32) (x2 : Vec Ideal S1x256x1024 .i32)
    (r : Fin 256) (j : Fin 1024) : Gen.k0_pay7 (F := Ideal) x0 x1 x2 (ix2 r j) = dcoord x0 x1 x2 r j 0 := by
  unfold Gen.k0_pay7
  refine (maskedDiff_apply (Gen.k0_pay4 x0) (Gen.k0_pay5 x1) (Gen.k0_pay6 x2) 0 slices_S256x3_o0_0_S256x1 slices_S1024x3_o0_0_S1024x1
    (0 : Fin 3) rfl r j).trans ?_
  exact dcoord_of_pays x0 x1 x2 r j 0

/-- Coordinate 1 over the tile. -/
theorem pay10_apply (x0 : Vec Ideal S1x256x3 .f32) (x1 : Vec Ideal S1x1024x3 .f32) (x2 : Vec Ideal S1x256x1024 .i32)
    (r : Fin 256) (j : Fin 1024) : Gen.k0_pay10 (F := Ideal) x0 x1 x2 (ix2 r j) = dcoord x0 x1 x2 r j 1 := by
  unfold Gen.k0_pay10
  refine (maskedDiff_apply (Gen.k0_pay4 x0) (Gen.k0_pay5 x1) (Gen.k0_pay6 x2) 1 slices_S256x3_o0_1_S256x1 slices_S1024x3_o0_1_S1024x1
    (1 : Fin 3) rfl r j).trans ?_
  exact dcoord_of_pays x0 x1 x2 r j 1

/-- Coordinate 2 over the tile, from the blocks without their unit axes. -/
theorem pay1_apply (x0 : Vec Ideal S1x256x3 .f32) (x1 : Vec Ideal S1x1024x3 .f32) (x2 : Vec Ideal S1x256x1024 .i32)
    (r : Fin 256) (j : Fin 1024) :
    Gen.k0_pay1 (F := Ideal) (Gen.k0_pay4 x0) (Gen.k0_pay5 x1) (Gen.k0_pay6 x2) (ix2 r j) = dcoord x0 x1 x2 r j 2 := by
  unfold Gen.k0_pay1
  refine (maskedDiff_apply (Gen.k0_pay4 x0) (Gen.k0_pay5 x1) (Gen.k0_pay6 x2) 2 slices_S256x3_o0_2_S256x1 slices_S1024x3_o0_2_S1024x1
    (2 : Fin 3) rfl r j).trans ?_
  exact dcoord_of_pays x0 x1 x2 r j 2

/-! ## The four stored values -/

/-- The first store: coordinate 0 of the masked difference. -/
theorem pay8_apply (x0 : Vec Ideal S1x256x3 .f32) (x1 : Vec Ideal S1x1024x3 .f32) (x2 : Vec Ideal S1x256x1024 .i32)
    (r : Fin 256) (j : Fin 1024) :
    Gen.k0_pay8 (F := Ideal) x0 x1 x2 (ix4 (0 : Fin 1) (0 : Fin 1) r j) = dcoord x0 x1 x2 r j 0 := by
  unfold Gen.k0_pay8
  refine (shapeCast_ab_11ab_apply _ _ (0 : Fin 1) (0 : Fin 1) r j).trans ?_
  exact pay7_apply x0 x1 x2 r j

/-- The second store: coordinate 1 of the masked difference. -/
theorem pay11_apply (x0 : Vec Ideal S1x256x3 .f32) (x1 : Vec Ideal S1x1024x3 .f32) (x2 : Vec Ideal S1x256x1024 .i32)
    (r : Fin 256) (j : Fin 1024) :
    Gen.k0_pay11 (F := Ideal) x0 x1 x2 (ix4 (0 : Fin 1) (0 : Fin 1) r j) = dcoord x0 x1 x2 r j 1 := by
  unfold Gen.k0_pay11
  refine (shapeCast_ab_11ab_apply _ _ (0 : Fin 1) (0 : Fin 1) r j).trans ?_
  exact pay10_apply x0 x1 x2 r j

/-- The third store: coordinate 2 of the masked difference. -/
theorem pay2_apply (x0 : Vec Ideal S1x256x3 .f32) (x1 : Vec Ideal S1x1024x3 .f32) (x2 : Vec Ideal S1x256x1024 .i32)
    (r : Fin 256) (j : Fin 1024) :
    Gen.k0_pay2 (F := Ideal) (Gen.k0_pay4 x0) (Gen.k0_pay5 x1) (Gen.k0_pay6 x2) (ix4 (0 : Fin 1) (0 : Fin 1) r j)
      = dcoord x0 x1 x2 r j 2 := by
  unfold Gen.k0_pay2
  refine (shapeCast_ab_11ab_apply _ _ (0 : Fin 1) (0 : Fin 1) r j).trans ?_
  exact pay1_apply x0 x1 x2 r j

/-- The running sum of squares after coordinate 0: the zero word plus the square. -/
theorem pay9_apply (x0 : Vec Ideal S1x256x3 .f32) (x1 : Vec Ideal S1x1024x3 .f32) (x2 : Vec Ideal S1x256x1024 .i32)
    (r : Fin 256) (j : Fin 1024) :
    Gen.k0_pay9 (F := Ideal) x0 x1 x2 (ix2 r j) = Cert.Shell.zeroW + dcoord x0 x1 x2 r j 0 * dcoord x0 x1 x2 r j 0 := by
  show Cert.Shell.zeroW + Gen.k0_pay7 (F := Ideal) x0 x1 x2 (ix2 r j) * Gen.k0_pay7 (F := Ideal) x0 x1 x2 (ix2 r j) = _
  rw [pay7_apply]

/-- The fourth store: the guarded root of the squared length, summed from the zero word. -/
theorem pay3_apply (x0 : Vec Ideal S1x256x3 .f32) (x1 : Vec Ideal S1x1024x3 .f32) (x2 : Vec Ideal S1x256x1024 .i32)
    (r : Fin 256) (j : Fin 1024) :
    Gen.k0_pay3 (F := Ideal) (Gen.k0_pay4 x0) (Gen.k0_pay5 x1) (Gen.k0_pay6 x2) (Gen.k0_pay9 x0 x1 x2) (Gen.k0_pay10 x0 x1 x2)
        (ix3 (0 : Fin 1) r j)
      = Cert.Shell.guardedRoot (Cert.Shell.zeroW + ∑ c : Fin 3, dcoord x0 x1 x2 r j c * dcoord x0 x1 x2 r j c) := by
  unfold Gen.k0_pay3
  refine (shapeCast_ab_1ab_apply _ _ (0 : Fin 1) r j).trans ?_
  show Cert.Shell.guardedRoot
      ((Gen.k0_pay9 (F := Ideal) x0 x1 x2 (ix2 r j)
          + Gen.k0_pay10 (F := Ideal) x0 x1 x2 (ix2 r j) * Gen.k0_pay10 (F := Ideal) x0 x1 x2 (ix2 r j))
        + Gen.k0_pay1 (F := Ideal) (Gen.k0_pay4 x0) (Gen.k0_pay5 x1) (Gen.k0_pay6 x2) (ix2 r j)
          * Gen.k0_pay1 (F := Ideal) (Gen.k0_pay4 x0) (Gen.k0_pay5 x1) (Gen.k0_pay6 x2) (ix2 r j)) = _
  rw [pay9_apply, pay10_apply, pay1_apply, Fin.sum_univ_three, ← add_assoc, ← add_assoc]

end Cert.KernelIdeal.PayValue

end
-- ==== Proof.FinalI.lean ====
/-
  From blocks to the arrays, at the ideal instance.

  The grid has 64 points: 16 systems by 4 row tiles of 256 centre atoms. Point t works on system t / 4 and row tile
  t % 4: it reads rows 256 (t % 4) .. 256 (t % 4) + 255 of the system's positions, all 1024 positions of the system and
  the same rows of the system's table, and writes back the same rows of the distances and, coordinate-major, of the
  displacements. Every written block is the restriction of ONE function of the two arrays the region read, and the 64
  blocks tile each result array; so each result array ends holding that function.
-/
import proofs.«149282_j17884243820650_2_alg».proof.Proof.DataI
import proofs.«149282_j17884243820650_2_alg».proof.Proof.PayIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.PayValue (maskw dcoord)

/-! ## The two results as whole arrays -/

/-- Coordinate c of the masked displacement from atom i to atom j of system b, the table read as words. -/
def kdiff (P : (⟨S16x1024x3, .f32⟩ : BufTy).Contents (Elt Ideal)) (Wd : (⟨S16x1024x1024, .i32⟩ : BufTy).Contents (Elt Ideal))
    (b : Fin 16) (i j : Fin 1024) (c : Fin 3) : EReal :=
  (P (ix3 b j c) - P (ix3 b i c)) * maskw (Wd (ix3 b i j))

/-- The distances: the guarded root of the squared length of the masked displacement, summed from the zero word. -/
def kdist (P : (⟨S16x1024x3, .f32⟩ : BufTy).Contents (Elt Ideal)) (Wd : (⟨S16x1024x1024, .i32⟩ : BufTy).Contents (Elt Ideal)) :
    S16x1024x1024.Idx → EReal :=
  fun x => Cert.Shell.guardedRoot (Cert.Shell.zeroW + ∑ c : Fin 3, kdiff P Wd (x 0) (x 1) (x 2) c * kdiff P Wd (x 0) (x 1) (x 2) c)

/-- The displacements, coordinate-major: axis 1 is the coordinate. -/
def kvec (P : (⟨S16x1024x3, .f32⟩ : BufTy).Contents (Elt Ideal)) (Wd : (⟨S16x1024x1024, .i32⟩ : BufTy).Contents (Elt Ideal)) :
    S16x3x1024x1024.Idx → EReal :=
  fun x => kdiff P Wd (x 0) (x 2) (x 3) (x 1)

/-! ## What the body leaves in each output buffer, at an index -/

theorem hz3 : (![0, 0, 0] : Fin 3 → Nat) = fun _ => 0 := funext fun a => by fin_cases a <;> rfl

section Body
variable {F : FTy → Type} [FloatOps F]

/-- A load of a whole block reads the block. -/
theorem ldCentre (x0 : Vec F S1x256x3 .f32) : View.ld x0 rCentre = x0 := View.ld_unit_zero (S := S1x256x3) hz3 _ x0
theorem ldSystem (x1 : Vec F S1x1024x3 .f32) : View.ld x1 rSystem = x1 := View.ld_unit_zero (S := S1x1024x3) hz3 _ x1
theorem ldTable (x2 : Vec F S1x256x1024 .i32) : View.ld x2 rTable = x2 := View.ld_unit_zero (S := S1x256x1024) hz3 _ x2

/-- The distance buffer holds its one store's payload. -/
theorem outDist_eq (x0 : Vec F S1x256x3 .f32) (x1 : Vec F S1x1024x3 .f32) (x2 : Vec F S1x256x1024 .i32) :
    outDist x0 x1 x2 = k0_pay3 (k0_pay4 x0) (k0_pay5 x1) (k0_pay6 x2) (k0_pay9 x0 x1 x2) (k0_pay10 x0 x1 x2) := by
  unfold outDist
  rw [ldCentre, ldSystem, ldTable]
  exact View.canon_unit_zero (S := S1x256x1024) hz3 _ _

end Body

/-- The distance buffer at row r, atom j. -/
theorem outDist_apply (x0 : Vec Ideal S1x256x3 .f32) (x1 : Vec Ideal S1x1024x3 .f32) (x2 : Vec Ideal S1x256x1024 .i32)
    (r : Fin 256) (j : Fin 1024) :
    outDist (F := Ideal) x0 x1 x2 (ix3 (0 : Fin 1) r j)
      = Cert.Shell.guardedRoot (Cert.Shell.zeroW + ∑ c : Fin 3, dcoord x0 x1 x2 r j c * dcoord x0 x1 x2 r j c) := by
  rw [outDist_eq]
  exact Cert.KernelIdeal.PayValue.pay3_apply x0 x1 x2 r j

/-- Where an element of plane o of the displacement buffer sits in the buffer. -/
theorem plane_emb (o : Nat) (inb : ∀ a, (![0, o, 0, 0] : Fin 4 → Nat) a + S1x1x256x1024.size a ≤ S1x3x256x1024.size a)
    (cc : Fin 3) (hc : cc.val = o) (x : S1x1x256x1024.Idx) :
    (Rect.unit (s := S1x3x256x1024) ![0, o, 0, 0] S1x1x256x1024.size inb).emb x = ix4 (0 : Fin 1) cc (x 2) (x 3) := by
  funext a
  apply Fin.ext
  have h0 : (x 0).val < 1 := (x 0).isLt
  have h1 : (x 1).val < 1 := (x 1).isLt
  match a with
  | ⟨0, _⟩ => show 0 + 1 * (x 0).val = 0; omega
  | ⟨1, _⟩ => show o + 1 * (x 1).val = cc.val; omega
  | ⟨2, _⟩ => show 0 + 1 * (x 2).val = (x 2).val; omega
  | ⟨3, _⟩ => show 0 + 1 * (x 3).val = (x 3).val; omega

/-- An index of a plane has both unit coordinates zero. -/
theorem plane_idx (x : S1x1x256x1024.Idx) : x = ix4 (0 : Fin 1) (0 : Fin 1) (x 2) (x 3) := by
  funext a
  have h0 : (x 0).val < 1 := (x 0).isLt
  have h1 : (x 1).val < 1 := (x 1).isLt
  match a with
  | ⟨0, _⟩ => exact Fin.ext (show (x 0).val = 0 by omega)
  | ⟨1, _⟩ => exact Fin.ext (show (x 1).val = 0 by omega)
  | ⟨2, _⟩ => rfl
  | ⟨3, _⟩ => rfl

/-- A plane's payload that is coordinate cc of the masked displacement at every (row, atom) is it at the buffer's index
    under each of the plane's elements. -/
theorem plane_piece (o : Nat) (inb : ∀ a, (![0, o, 0, 0] : Fin 4 → Nat) a + S1x1x256x1024.size a ≤ S1x3x256x1024.size a)
    (cc : Fin 3) (hc : cc.val = o) (pay : Vec Ideal S1x1x256x1024 .f32)
    (x0 : Vec Ideal S1x256x3 .f32) (x1 : Vec Ideal S1x1024x3 .f32) (x2 : Vec Ideal S1x256x1024 .i32)
    (hpay : ∀ (r : Fin 256) (j : Fin 1024), pay (ix4 (0 : Fin 1) (0 : Fin 1) r j) = dcoord x0 x1 x2 r j cc)
    (x : S1x1x256x1024.Idx) :
    pay x = dcoord x0 x1 x2 ((Rect.unit (s := S1x3x256x1024) ![0, o, 0, 0] S1x1x256x1024.size inb).emb x 2)
      ((Rect.unit (s := S1x3x256x1024) ![0, o, 0, 0] S1x1x256x1024.size inb).emb x 3)
      ((Rect.unit (s := S1x3x256x1024) ![0, o, 0, 0] S1x1x256x1024.size inb).emb x 1) := by
  rw [plane_emb o inb cc hc x]
  exact (congrArg pay (plane_idx x)).trans (hpay (x 2) (x 3))

/-- The displacement buffer at coordinate cc, row r, atom j. -/
theorem outVec_apply (x0 : Vec Ideal S1x256x3 .f32) (x1 : Vec Ideal S1x1024x3 .f32) (x2 : Vec Ideal S1x256x1024 .i32)
    (cc : Fin 3) (r : Fin 256) (j : Fin 1024) :
    outVec (F := Ideal) x0 x1 x2 (ix4 (0 : Fin 1) cc r j) = dcoord x0 x1 x2 r j cc := by
  unfold outVec
  rw [ldCentre, ldSystem, ldTable]
  refine (View.canon_apply_of_pieces (fun y : S1x3x256x1024.Idx => dcoord x0 x1 x2 (y 2) (y 3) (y 1)) _ ?_ _ (coverVec _ _ _ _)).trans rfl
  intro p hp x
  simp only [List.mem_cons, List.mem_singleton, List.not_mem_nil, or_false] at hp
  rcases hp with rfl | rfl | rfl
  · exact plane_piece 2 inb_S1x3x256x1024_S1x1x256x1024_0_2_0_0 2 rfl _ x0 x1 x2 (Cert.KernelIdeal.PayValue.pay2_apply x0 x1 x2) x
  · exact plane_piece 1 inb_S1x3x256x1024_S1x1x256x1024_0_1_0_0 1 rfl _ x0 x1 x2 (Cert.KernelIdeal.PayValue.pay11_apply x0 x1 x2) x
  · exact plane_piece 0 inb_S1x3x256x1024_S1x1x256x1024_0_0_0_0 0 rfl _ x0 x1 x2 (Cert.KernelIdeal.PayValue.pay8_apply x0 x1 x2) x

/-! ## One point's blocks, over any two arrays -/

/-- Row r of row tile q. -/
def rowOf (q : Fin 4) (r : Fin 256) : Fin 1024 := ⟨256 * q.val + r.val, by have := q.isLt; have := r.isLt; omega⟩

/-- If the three blocks are the rows of tile q of system b's positions, all of system b's positions and the rows of tile q of
    system b's table, the body's masked difference is the arrays'. -/
theorem dcoord_eq_kdiff (P : (⟨S16x1024x3, .f32⟩ : BufTy).Contents (Elt Ideal)) (Wd : (⟨S16x1024x1024, .i32⟩ : BufTy).Contents (Elt Ideal))
    (x0 : Vec Ideal S1x256x3 .f32) (x1 : Vec Ideal S1x1024x3 .f32) (x2 : Vec Ideal S1x256x1024 .i32) (b : Fin 16) (q : Fin 4)
    (h0 : ∀ (r : Fin 256) (k : Fin 3), x0 (ix3 (0 : Fin 1) r k) = P (ix3 b (rowOf q r) k))
    (h1 : ∀ (j : Fin 1024) (k : Fin 3), x1 (ix3 (0 : Fin 1) j k) = P (ix3 b j k))
    (h2 : ∀ (r : Fin 256) (j : Fin 1024), x2 (ix3 (0 : Fin 1) r j) = Wd (ix3 b (rowOf q r) j))
    (r : Fin 256) (j : Fin 1024) (k : Fin 3) : dcoord x0 x1 x2 r j k = kdiff P Wd b (rowOf q r) j k := by
  unfold Cert.KernelIdeal.PayValue.dcoord kdiff
  rw [h0, h1, h2]

/-- Then the distance buffer holds the rows of tile q of system b's distances, -/
theorem dist_point (P : (⟨S16x1024x3, .f32⟩ : BufTy).Contents (Elt Ideal)) (Wd : (⟨S16x1024x1024, .i32⟩ : BufTy).Contents (Elt Ideal))
    (x0 : Vec Ideal S1x256x3 .f32) (x1 : Vec Ideal S1x1024x3 .f32) (x2 : Vec Ideal S1x256x1024 .i32) (b : Fin 16) (q : Fin 4)
    (h0 : ∀ (r : Fin 256) (k : Fin 3), x0 (ix3 (0 : Fin 1) r k) = P (ix3 b (rowOf q r) k))
    (h1 : ∀ (j : Fin 1024) (k : Fin 3), x1 (ix3 (0 : Fin 1) j k) = P (ix3 b j k))
    (h2 : ∀ (r : Fin 256) (j : Fin 1024), x2 (ix3 (0 : Fin 1) r j) = Wd (ix3 b (rowOf q r) j))
    (r : Fin 256) (j : Fin 1024) :
    outDist (F := Ideal) x0 x1 x2 (ix3 (0 : Fin 1) r j) = kdist P Wd (ix3 b (rowOf q r) j) := by
  rw [outDist_apply]
  show _ = Cert.Shell.guardedRoot (Cert.Shell.zeroW + ∑ c : Fin 3, kdiff P Wd b (rowOf q r) j c * kdiff P Wd b (rowOf q r) j c)
  simp only [dcoord_eq_kdiff P Wd x0 x1 x2 b q h0 h1 h2]

/-- and the displacement buffer the same rows of its displacements, coordinate-major. -/
theorem vec_point (P : (⟨S16x1024x3, .f32⟩ : BufTy).Contents (Elt Ideal)) (Wd : (⟨S16x1024x1024, .i32⟩ : BufTy).Contents (Elt Ideal))
    (x0 : Vec Ideal S1x256x3 .f32) (x1 : Vec Ideal S1x1024x3 .f32) (x2 : Vec Ideal S1x256x1024 .i32) (b : Fin 16) (q : Fin 4)
    (h0 : ∀ (r : Fin 256) (k : Fin 3), x0 (ix3 (0 : Fin 1) r k) = P (ix3 b (rowOf q r) k))
    (h1 : ∀ (j : Fin 1024) (k : Fin 3), x1 (ix3 (0 : Fin 1) j k) = P (ix3 b j k))
    (h2 : ∀ (r : Fin 256) (j : Fin 1024), x2 (ix3 (0 : Fin 1) r j) = Wd (ix3 b (rowOf q r) j))
    (cc : Fin 3) (r : Fin 256) (j : Fin 1024) :
    outVec (F := Ideal) x0 x1 x2 (ix4 (0 : Fin 1) cc r j) = kvec P Wd (ix4 b cc (rowOf q r) j) := by
  rw [outVec_apply]
  exact dcoord_eq_kdiff P Wd x0 x1 x2 b q h0 h1 h2 r j cc

/-! ## The grid: which block of each array a point reads and writes -/

/-- Point t works on system t / 4 -/
def sysOf (t : Fin cfg0.N) : Fin 16 := ⟨t.val / 4, by have h : t.val < 64 := lt_of_lt_of_eq t.isLt N_0; omega⟩
/-- and row tile t % 4. -/
def tileOf (t : Fin cfg0.N) : Fin 4 := ⟨t.val % 4, by omega⟩

/-- The windows' block indices, decided over the grid. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 4) = t.val / 4 ∧ win0_4.index t (1 : Fin 4) = 0 ∧ win0_4.index t (2 : Fin 4) = t.val % 4
        ∧ win0_4.index t (3 : Fin 4) = 0) :=
  (by decide +kernel : ∀ t : Fin grid0.N, _)

/-- Where the elements of point t's blocks sit in the arrays. -/
theorem emb0 (t : Fin cfg0.N) (r : Fin 256) (k : Fin 3) :
    ((cfg0.win 0).blk t).view.emb (ix3 (0 : Fin 1) r k) = ix3 (sysOf t) (rowOf (tileOf t) r) k := by
  obtain ⟨⟨e0, e1, e2⟩, -⟩ := idx_facts t
  funext a
  apply Fin.ext
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 3 + 1 * k.val = k.val; omega

theorem emb1 (t : Fin cfg0.N) (j : Fin 1024) (k : Fin 3) :
    ((cfg0.win 1).blk t).view.emb (ix3 (0 : Fin 1) j k) = ix3 (sysOf t) j k := by
  obtain ⟨-, ⟨e0, e1, e2⟩, -⟩ := idx_facts t
  funext a
  apply Fin.ext
  match a with
  | ⟨0, _⟩ => show win0_1.index t (0 : Fin 3) * 1 + 1 * 0 = t.val / 4; omega
  | ⟨1, _⟩ => show win0_1.index t (1 : Fin 3) * 1024 + 1 * j.val = j.val; omega
  | ⟨2, _⟩ => show win0_1.index t (2 : Fin 3) * 3 + 1 * k.val = k.val; omega

theorem emb2 (t : Fin cfg0.N) (r : Fin 256) (j : Fin 1024) :
    ((cfg0.win 2).blk t).view.emb (ix3 (0 : Fin 1) r j) = ix3 (sysOf t) (rowOf (tileOf t) r) j := by
  obtain ⟨-, -, ⟨e0, e1, e2⟩, -⟩ := idx_facts t
  funext a
  apply Fin.ext
  match a with
  | ⟨0, _⟩ => show win0_2.index t (0 : Fin 3) * 1 + 1 * 0 = t.val / 4; omega
  | ⟨1, _⟩ => show win0_2.index t (1 : Fin 3) * 256 + 1 * r.val = 256 * (t.val % 4) + r.val; omega
  | ⟨2, _⟩ => show win0_2.index t (2 : Fin 3) * 1024 + 1 * j.val = j.val; omega

theorem emb3 (t : Fin cfg0.N) (r : Fin 256) (j : Fin 1024) :
    ((cfg0.win 3).blk t).view.emb (ix3 (0 : Fin 1) r j) = ix3 (sysOf t) (rowOf (tileOf t) r) j := by
  obtain ⟨-, -, -, ⟨e0, e1, e2⟩, -⟩ := idx_facts t
  funext a
  apply Fin.ext
  match a with
  | ⟨0, _⟩ => show win0_3.index t (0 : Fin 3) * 1 + 1 * 0 = t.val / 4; omega
  | ⟨1, _⟩ => show win0_3.index t (1 : Fin 3) * 256 + 1 * r.val = 256 * (t.val % 4) + r.val; omega
  | ⟨2, _⟩ => show win0_3.index t (2 : Fin 3) * 1024 + 1 * j.val = j.val; omega

theorem emb4 (t : Fin cfg0.N) (cc : Fin 3) (r : Fin 256) (j : Fin 1024) :
    ((cfg0.win 4).blk t).view.emb (ix4 (0 : Fin 1) cc r j) = ix4 (sysOf t) cc (rowOf (tileOf t) r) j := by
  obtain ⟨-, -, -, -, e0, e1, e2, e3⟩ := idx_facts t
  funext a
  apply Fin.ext
  match a with
  | ⟨0, _⟩ => show win0_4.index t (0 : Fin 4) * 1 + 1 * 0 = t.val / 4; omega
  | ⟨1, _⟩ => show win0_4.index t (1 : Fin 4) * 3 + 1 * cc.val = cc.val; omega
  | ⟨2, _⟩ => show win0_4.index t (2 : Fin 4) * 256 + 1 * r.val = 256 * (t.val % 4) + r.val; omega
  | ⟨3, _⟩ => show win0_4.index t (3 : Fin 4) * 1024 + 1 * j.val = j.val; omega

/-! ## What each point writes back -/

section Point
variable (m : (ℓ : Loc nD τ sig) → Buf (Elt Ideal) ℓ)

/-- Point t's three input blocks, read at an index. -/
theorem iblk0_apply (c : Dev nD) (t : Fin cfg0.N) (r : Fin 256) (k : Fin 3) :
    iblk m c 0 t (ix3 (0 : Fin 1) r k) = V m c main_arg0 (ix3 (sysOf t) (rowOf (tileOf t) r) k) := by
  show V m c main_arg0 (((cfg0.win 0).blk t).view.emb (ix3 (0 : Fin 1) r k)) = _
  exact congrArg (V m c main_arg0) (emb0 t r k)
theorem iblk1_apply (c : Dev nD) (t : Fin cfg0.N) (j : Fin 1024) (k : Fin 3) :
    iblk m c 1 t (ix3 (0 : Fin 1) j k) = V m c main_arg0 (ix3 (sysOf t) j k) := by
  show V m c main_arg0 (((cfg0.win 1).blk t).view.emb (ix3 (0 : Fin 1) j k)) = _
  exact congrArg (V m c main_arg0) (emb1 t j k)
theorem iblk2_apply (c : Dev nD) (t : Fin cfg0.N) (r : Fin 256) (j : Fin 1024) :
    iblk m c 2 t (ix3 (0 : Fin 1) r j) = V m c main_v0 (ix3 (sysOf t) (rowOf (tileOf t) r) j) := by
  show V m c main_v0 (((cfg0.win 2).blk t).view.emb (ix3 (0 : Fin 1) r j)) = _
  exact congrArg (V m c main_v0) (emb2 t r j)

/-- What point t writes back to the distances is its block of the arrays' distances. -/
theorem flushed3_eq (c : Dev nD) (t : Fin cfg0.N) :
    (dats (F := Ideal) m 0 c).flushed 3 t = ((cfg0.win 3).blk t).view.read (Elt Ideal) (kdist (V m c main_arg0) (V m c main_v0)) := by
  show (cfg0.win 3).cut (grid0.coords t) ((dats m 0 c).after 3 t) = _
  rw [after_3]
  funext y
  obtain ⟨r, j, rfl⟩ : ∃ (r : Fin 256) (j : Fin 1024), y = ix3 (0 : Fin 1) r j :=
    ⟨y 1, y 2, (eq_ix3 y).trans (by congr 1; exact Fin.ext (by have h : (y 0).val < 1 := (y 0).isLt; show (y 0).val = 0; omega))⟩
  show outDist (iblk m c 0 t) (iblk m c 1 t) (iblk m c 2 t) (ix3 (0 : Fin 1) r j)
    = kdist (V m c main_arg0) (V m c main_v0) (((cfg0.win 3).blk t).view.emb (ix3 (0 : Fin 1) r j))
  rw [emb3 t r j]
  exact dist_point (V m c main_arg0) (V m c main_v0) (iblk m c 0 t) (iblk m c 1 t) (iblk m c 2 t) (sysOf t) (tileOf t)
    (iblk0_apply m c t) (iblk1_apply m c t) (iblk2_apply m c t) r j

end Point

section Final
variable (m : (ℓ : Loc nD τ sig) → Buf (Elt Ideal) ℓ)

/-- What point t writes back to the displacements is its block of the arrays' displacements. -/
theorem flushed4_eq (c : Dev nD) (t : Fin cfg0.N) :
    (dats (F := Ideal) m 0 c).flushed 4 t = ((cfg0.win 4).blk t).view.read (Elt Ideal) (kvec (V m c main_arg0) (V m c main_v0)) := by
  show (cfg0.win 4).cut (grid0.coords t) ((dats m 0 c).after 4 t) = _
  rw [after_4]
  funext y
  obtain ⟨cc, r, j, rfl⟩ : ∃ (cc : Fin 3) (r : Fin 256) (j : Fin 1024), y = ix4 (0 : Fin 1) cc r j :=
    ⟨y 1, y 2, y 3, (eq_ix4 y).trans (by congr 1; exact Fin.ext (by have h : (y 0).val < 1 := (y 0).isLt; show (y 0).val = 0; omega))⟩
  show outVec (iblk m c 0 t) (iblk m c 1 t) (iblk m c 2 t) (ix4 (0 : Fin 1) cc r j)
    = kvec (V m c main_arg0) (V m c main_v0) (((cfg0.win 4).blk t).view.emb (ix4 (0 : Fin 1) cc r j))
  rw [emb4 t cc r j]
  exact vec_point (V m c main_arg0) (V m c main_v0) (iblk m c 0 t) (iblk m c 1 t) (iblk m c 2 t) (sysOf t) (tileOf t)
    (iblk0_apply m c t) (iblk1_apply m c t) (iblk2_apply m c t) cc r j

/-! ## The blocks tile the arrays -/

/-- The point that works on row i of system b. -/
def pointOf (b : Fin 16) (i : Fin 1024) : Fin cfg0.N :=
  ⟨4 * b.val + i.val / 256, by have := b.isLt; have := i.isLt; show _ < grid0.N; rw [N_0]; omega⟩

/-- Every index of the distances is in the block of the point that works on its row. -/
theorem cover3 (i : S16x1024x1024.Idx) : i ∈ ((cfg0.win 3).blk (pointOf (i 0) (i 1))).view.set := by
  obtain ⟨-, -, -, ⟨e0, e1, e2⟩, -⟩ := idx_facts (pointOf (i 0) (i 1))
  have h0 : (i 0).val < 16 := (i 0).isLt
  have h1 : (i 1).val < 1024 := (i 1).isLt
  have h2 : (i 2).val < 1024 := (i 2).isLt
  have hp : (pointOf (i 0) (i 1)).val = 4 * (i 0).val + (i 1).val / 256 := rfl
  show i ∈ ((View.whole main_v1_0).slice (win0_3.rect (pointOf (i 0) (i 1)))).set
  rw [View.set_slice_whole, Rect.mem_set_unit]
  intro a
  match a with
  | ⟨0, _⟩ =>
    show win0_3.index (pointOf (i 0) (i 1)) (0 : Fin 3) * 1 ≤ (i 0).val
      ∧ (i 0).val < win0_3.index (pointOf (i 0) (i 1)) (0 : Fin 3) * 1 + 1
    omega
  | ⟨1, _⟩ =>
    show win0_3.index (pointOf (i 0) (i 1)) (1 : Fin 3) * 256 ≤ (i 1).val
      ∧ (i 1).val < win0_3.index (pointOf (i 0) (i 1)) (1 : Fin 3) * 256 + 256
    omega
  | ⟨2, _⟩ =>
    show win0_3.index (pointOf (i 0) (i 1)) (2 : Fin 3) * 1024 ≤ (i 2).val
      ∧ (i 2).val < win0_3.index (pointOf (i 0) (i 1)) (2 : Fin 3) * 1024 + 1024
    omega

/-- Every index of the displacements is in the block of the point that works on its row. -/
theorem cover4 (i : S16x3x1024x1024.Idx) : i ∈ ((cfg0.win 4).blk (pointOf (i 0) (i 2))).view.set := by
  obtain ⟨-, -, -, -, e0, e1, e2, e3⟩ := idx_facts (pointOf (i 0) (i 2))
  have h0 : (i 0).val < 16 := (i 0).isLt
  have h1 : (i 1).val < 3 := (i 1).isLt
  have h2 : (i 2).val < 1024 := (i 2).isLt
  have h3 : (i 3).val < 1024 := (i 3).isLt
  have hp : (pointOf (i 0) (i 2)).val = 4 * (i 0).val + (i 2).val / 256 := rfl
  show i ∈ ((View.whole main_v1_1).slice (win0_4.rect (pointOf (i 0) (i 2)))).set
  rw [View.set_slice_whole, Rect.mem_set_unit]
  intro a
  match a with
  | ⟨0, _⟩ =>
    show win0_4.index (pointOf (i 0) (i 2)) (0 : Fin 4) * 1 ≤ (i 0).val
      ∧ (i 0).val < win0_4.index (pointOf (i 0) (i 2)) (0 : Fin 4) * 1 + 1
    omega
  | ⟨1, _⟩ =>
    show win0_4.index (pointOf (i 0) (i 2)) (1 : Fin 4) * 3 ≤ (i 1).val
      ∧ (i 1).val < win0_4.index (pointOf (i 0) (i 2)) (1 : Fin 4) * 3 + 3
    omega
  | ⟨2, _⟩ =>
    show win0_4.index (pointOf (i 0) (i 2)) (2 : Fin 4) * 256 ≤ (i 2).val
      ∧ (i 2).val < win0_4.index (pointOf (i 0) (i 2)) (2 : Fin 4) * 256 + 256
    omega
  | ⟨3, _⟩ =>
    show win0_4.index (pointOf (i 0) (i 2)) (3 : Fin 4) * 1024 ≤ (i 3).val
      ∧ (i 3).val < win0_4.index (pointOf (i 0) (i 2)) (3 : Fin 4) * 1024 + 1024
    omega

/-! ## The two result arrays after the run -/

/-- The distances end holding the arrays' distances. -/
theorem final_dist (c : Dev nD) :
    (dats (F := Ideal) m 0 c).arrAt 3 cfg0.N = kdist (V m c main_arg0) (V m c main_v0) :=
  (dats (F := Ideal) m 0 c).arrAt_eq_of_cover 3 (kdist (V m c main_arg0) (V m c main_v0)) (fun t _ => flushed3_eq m c t)
    fun i => ⟨pointOf (i 0) (i 1), flush0_3 _, cover3 i⟩

/-- The displacements end holding the arrays' displacements, coordinate-major. -/
theorem final_vec (c : Dev nD) :
    (dats (F := Ideal) m 0 c).arrAt 4 cfg0.N = kvec (V m c main_arg0) (V m c main_v0) :=
  (dats (F := Ideal) m 0 c).arrAt_eq_of_cover 4 (kvec (V m c main_arg0) (V m c main_v0)) (fun t _ => flushed4_eq m c t)
    fun i => ⟨pointOf (i 0) (i 2), flush0_4 _, cover4 i⟩

end Final

end Cert.KernelIdeal.Hand

end
-- ==== Proof.Bridge.lean ====
/-
  The kernel's two results are the specification's arrays. The pipeline leaves the distance array and the
  coordinate-major displacement array as functions of the positions and of the neighbour table read as words; a word
  that widens a bit reads as that bit's number, so those functions are the specification's once the table is the
  widened argument; and the final transposition moves the coordinate axis last, which is how the specification
  indexes the displacements.
-/
import proofs.«149282_j17884243820650_2_alg».proof.Proof.RunI
import proofs.«149282_j17884243820650_2_alg».proof.Proof.FinalI
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

/-- The table as the region finds it: each bit of the argument widened to a word. -/
theorem V_v0 (m : (ℓ : Loc nD τ sig) → Buf (Elt Ideal) ℓ) (c : Dev nD) :
    V m c main_v0 = extui 32 (m ((c : Thread nD τ).loc main_arg1)) natLt_1_32 := by
  show StableHlo.after hostOps0 (V₀ m c) (Proc.devRef .tc main_v0) = _
  simp only [StableHlo.after_cons, StableHlo.after_nil]
  rw [StableHlo.unary_result]

/-- A displacement computed from the widened table is the specification's. -/
theorem kdiff_eq (P : (⟨S16x1024x3, .f32⟩ : BufTy).Contents (Elt Ideal)) (Mk : (⟨S16x1024x1024, .i1⟩ : BufTy).Contents (Elt Ideal))
    (b : Fin 16) (i j : Fin 1024) (c : Fin 3) :
    kdiff P (extui 32 Mk natLt_1_32) b i j c = Cert.Shell.diff P Mk b i j c := by
  unfold kdiff Cert.Shell.diff
  rw [show (extui 32 Mk natLt_1_32) (ix3 b i j) = (Mk (ix3 b i j)).setWidth 32 from rfl, Cert.KernelIdeal.PayValue.maskw_of_bit]

theorem kdist_eq (P : (⟨S16x1024x3, .f32⟩ : BufTy).Contents (Elt Ideal)) (Mk : (⟨S16x1024x1024, .i1⟩ : BufTy).Contents (Elt Ideal)) :
    kdist P (extui 32 Mk natLt_1_32) = Cert.Shell.dist P Mk := by
  funext x
  unfold kdist Cert.Shell.dist Cert.Shell.distAt Cert.Shell.sqLen
  refine congrArg Cert.Shell.guardedRoot (congrArg (Cert.Shell.zeroW + ·) (Finset.sum_congr rfl fun c _ => ?_))
  exact congrArg₂ (· * ·) (kdiff_eq P Mk (x 0) (x 1) (x 2) c) (kdiff_eq P Mk (x 0) (x 1) (x 2) c)

/-- The transposition reads, at system b, atoms i and j and coordinate c, the coordinate-major array at (b, c, i, j). -/
theorem kvec_transposed (P : (⟨S16x1024x3, .f32⟩ : BufTy).Contents (Elt Ideal)) (Mk : (⟨S16x1024x1024, .i1⟩ : BufTy).Contents (Elt Ideal)) :
    transpose S16x1024x1024x3 [0, 2, 3, 1] (kvec P (extui 32 Mk natLt_1_32)) transposes_S16x3x1024x1024_S16x1024x1024x3_0_2_3_1
      = Cert.Shell.vec P Mk := by
  funext x
  obtain ⟨b, i, j, c, rfl⟩ : ∃ (b : Fin 16) (i j : Fin 1024) (c : Fin 3), x = ix4 b i j c := ⟨x 0, x 1, x 2, x 3, eq_ix4 x⟩
  refine (transpose_apply _ _ _ _ (ix4 b c i j) (fun d => match d with | ⟨0, _⟩ => rfl | ⟨1, _⟩ => rfl | ⟨2, _⟩ => rfl | ⟨3, _⟩ => rfl)).trans ?_
  exact kdiff_eq P Mk b i j c

/-- The distance array the run ends with is the specification's, -/
theorem result_dist (m : (ℓ : Loc nD τ sig) → Buf (Elt Ideal) ℓ) (c : Dev nD) :
    (dats (F := Ideal) m 0 c).arrAt 3 cfg0.N = Cert.Shell.dist (m ((c : Thread nD τ).loc main_arg0)) (m ((c : Thread nD τ).loc main_arg1)) := by
  rw [final_dist, V_arg0, V_v0, kdist_eq]

/-- and so is the displacement array. -/
theorem result_vec (m : (ℓ : Loc nD τ sig) → Buf (Elt Ideal) ℓ) (c : Dev nD) :
    transpose S16x1024x1024x3 [0, 2, 3, 1] ((dats (F := Ideal) m 0 c).arrAt 4 cfg0.N) transposes_S16x3x1024x1024_S16x1024x1024x3_0_2_3_1
      = Cert.Shell.vec (m ((c : Thread nD τ).loc main_arg0)) (m ((c : Thread nD τ).loc main_arg1)) := by
  rw [final_vec, V_arg0, V_v0, kvec_transposed]

end Cert.KernelIdeal.Hand

end
-- ==== Proof.RefSpec.lean ====
/-
  The reference side: the reference program's two results, read at an index one stage at a time, are the
  specification's arrays. The displacement result is (P[b, j, c] - P[b, i, c]) * M[b, i, j]; the distance result is the
  guarded root of the squared length summed from the zero word.
-/
import proofs.«149282_j17884243820650_2_alg».proof.Proof.Gen.ReferenceIdeal.Read
import proofs.«149282_j17884243820650_2_alg».proof.Proof.Spec

noncomputable section

namespace Cert.ReferenceIdeal.RefValue

open Cert.ReferenceIdeal Cert.ReferenceIdeal.Read Idealize.ShloMosaic Idealize.ShloMosaic.ValueIdx

/-- Over the extended reals a bit read unsigned as a number is the mask value 0 or 1. -/
theorem uitofp_maskf (b : BitVec 1) : FloatOps.uitofp (F := Ideal) .f32 b = Cert.Shell.maskf b := rfl

/-- The zero word and the one word read as numbers are the specification's constants. -/
theorem ofBits_zeroW : FloatOps.ofBits (F := Ideal) .f32 0x00000000#32 = Cert.Shell.zeroW := rfl
theorem ofBits_oneW : FloatOps.ofBits (F := Ideal) .f32 0x3F800000#32 = Cert.Shell.oneW := rfl

/-! Index equations: each composed index function at a coordinate-built index is a coordinate-built index. -/

/-- The neighbour's position is read at (b, q, c): the centre axis was inserted with size one. -/
theorem idx_v2_v4 (b : Fin 16) (p q : Fin 1024) (c : Fin 3) :
    idx_main_v2 (idx_main_v4 (ix4 b p q c)) = ix3 b q c :=
  funext fun a => Fin.ext (by match a with | ⟨0, _⟩ => rfl | ⟨1, _⟩ => rfl | ⟨2, _⟩ => rfl)

/-- The centre's position is read at (b, p, c): the neighbour axis was inserted with size one. -/
theorem idx_v3_v5 (b : Fin 16) (p q : Fin 1024) (c : Fin 3) :
    idx_main_v3 (idx_main_v5 (ix4 b p q c)) = ix3 b p c :=
  funext fun a => Fin.ext (by match a with | ⟨0, _⟩ => rfl | ⟨1, _⟩ => rfl | ⟨2, _⟩ => rfl)

/-- The mask is read at (b, p, q): the coordinate axis was inserted with size one. -/
theorem idx_v1_v7 (b : Fin 16) (p q : Fin 1024) (c : Fin 3) :
    idx_main_v1 (idx_main_v7 (ix4 b p q c)) = ix3 b p q :=
  funext fun a => Fin.ext (by match a with | ⟨0, _⟩ => rfl | ⟨1, _⟩ => rfl | ⟨2, _⟩ => rfl)

/-- The summed axis is the last one. -/
theorem idx_v10 (b : Fin 16) (p q : Fin 1024) (k : Fin 3) :
    idx_main_v10 (ix3 b p q) k = ix4 b p q k :=
  funext fun a => Fin.ext (by match a with | ⟨0, _⟩ => rfl | ⟨1, _⟩ => rfl | ⟨2, _⟩ => rfl | ⟨3, _⟩ => rfl)

/-- The displacement result at (b, p, q, c) is the masked displacement. -/
theorem v8_ix (x0 : (⟨S16x1024x3, .f32⟩ : BufTy).Contents (Elt Ideal)) (x1 : (⟨S16x1024x1024, .i1⟩ : BufTy).Contents (Elt Ideal))
    (b : Fin 16) (p q : Fin 1024) (c : Fin 3) :
    val_main_v8 (F := Ideal) x0 x1 (ix4 b p q c) = Cert.Shell.diff x0 x1 b p q c := by
  rw [val_main_v8_apply, val_main_v6_apply, val_main_v4_apply, val_main_v2_apply, val_main_v5_apply, val_main_v3_apply,
    val_main_v7_apply, val_main_v1_apply, val_main_v0_apply]
  simp only [idx_v2_v4, idx_v3_v5, idx_v1_v7, Ideal.subf_def, Ideal.mulf_def, uitofp_maskf]
  rfl

theorem ref_vec (x0 : (⟨S16x1024x3, .f32⟩ : BufTy).Contents (Elt Ideal)) (x1 : (⟨S16x1024x1024, .i1⟩ : BufTy).Contents (Elt Ideal)) :
    Cert.ReferenceIdeal.Read.val_main_v8 (F := Ideal) x0 x1 = Cert.Shell.vec x0 x1 := by
  funext i
  obtain ⟨b, p, q, c, rfl⟩ : ∃ (b : Fin 16) (p q : Fin 1024) (c : Fin 3), i = ix4 b p q c := ⟨i 0, i 1, i 2, i 3, eq_ix4 i⟩
  rw [v8_ix, Cert.Shell.vec_ix]

/-- The squared length at (b, p, q): the zero word plus the sum over the three coordinates of the squared displacement. -/
theorem v10_ix (x0 : (⟨S16x1024x3, .f32⟩ : BufTy).Contents (Elt Ideal)) (x1 : (⟨S16x1024x1024, .i1⟩ : BufTy).Contents (Elt Ideal))
    (b : Fin 16) (p q : Fin 1024) :
    val_main_v10 (F := Ideal) x0 x1 (ix3 b p q) = Cert.Shell.sqLen x0 x1 b p q := by
  rw [val_main_v10_apply, val_main_cst_apply, ofBits_zeroW]
  simp only [idx_v10, val_main_v9_apply, v8_ix, Ideal.mulf_def]
  rfl

theorem ref_dist (x0 : (⟨S16x1024x3, .f32⟩ : BufTy).Contents (Elt Ideal)) (x1 : (⟨S16x1024x1024, .i1⟩ : BufTy).Contents (Elt Ideal)) :
    Cert.ReferenceIdeal.Read.val_main_v17 (F := Ideal) x0 x1 = Cert.Shell.dist x0 x1 := by
  funext i
  obtain ⟨b, p, q, rfl⟩ : ∃ (b : Fin 16) (p q : Fin 1024), i = ix3 b p q := ⟨i 0, i 1, i 2, eq_ix3 i⟩
  rw [val_main_v17_apply, val_main_v12_apply, val_main_v11_apply, val_main_cst_0_apply, val_main_v16_apply, val_main_v15_apply,
    val_main_v14_apply, val_main_v13_apply, val_main_cst_1_apply, val_main_call0_v1_apply, val_main_call0_v0_apply,
    val_main_cst_2_apply, val_main_call1_v1_apply, val_main_call1_v0_apply, val_main_cst_3_apply, v10_ix,
    ofBits_zeroW, ofBits_oneW, Ideal.hostUnary_sqrt_def, Cert.Shell.dist_ix]
  rfl

end Cert.ReferenceIdeal.RefValue

end
-- ==== Proof.lean ====
/-
  The certificate's five claims. Each of the two kernel programs (the word-level one and its idealization, the same
  text read at two instances) runs to the end with its arguments unchanged: that is the whole program's run, proved
  once for any reading of the floats, with the results dropped. The reference's run is the composition of its
  operations. Nothing was rewritten by the idealization, so there is nothing to preserve. And at the ideal instance
  the kernel's two results and the reference's are the same two arrays: the masked displacements between the atoms
  of each system and their guarded lengths, as the specification states them once.
-/
import proofs.«149282_j17884243820650_2_alg».proof.Defs
import proofs.«149282_j17884243820650_2_alg».proof.Proof.Gen.Kernel
import proofs.«149282_j17884243820650_2_alg».proof.Proof.Gen.KernelIdeal
import proofs.«149282_j17884243820650_2_alg».proof.Proof.Gen.ReferenceIdeal
import proofs.«149282_j17884243820650_2_alg».proof.Proof.Gen.Pre_finite_inputs
import proofs.«149282_j17884243820650_2_alg».proof.Proof.RunK
import proofs.«149282_j17884243820650_2_alg».proof.Proof.Bridge
import proofs.«149282_j17884243820650_2_alg».proof.Proof.RefSpec

noncomputable section

namespace Cert.Proof

open Idealize.ShloMosaic Idealize.ShloMosaic.TcCoe Idealize.SL.Sem

/-- The word-level kernel program runs, and its arguments end unchanged. -/
theorem frame_k : Cert.frame_Kernel := fun m ρ _ =>
  (θ_run Cert.Kernel.defs _ _).mono (fun _ h c => ⟨(h c).2.2.1, (h c).2.2.2⟩) (Cert.Kernel.Hand.run_main (F := Bits) m ρ)

/-- So does its idealization. -/
theorem frame_ki : Cert.frame_KernelIdeal := fun m ρ _ =>
  (θ_run Cert.KernelIdeal.defs _ _).mono (fun _ h c => ⟨(h c).2.2.1, (h c).2.2.2⟩) (Cert.KernelIdeal.Hand.run_main (F := Ideal) m ρ)

/-- The reference runs: the composition of its operations, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the ideal instance, from memories agreeing on the arguments, both programs end with the specification's two
    arrays of those arguments. -/
theorem algebraic : Cert.algebraic_KernelIdeal_ReferenceIdeal := by
  intro m ρ m' ρ' _ hagree
  refine ⟨fun c => Cert.Shell.dist (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Shell.vec (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_dist m c), (h c).2.1.trans (Cert.KernelIdeal.Hand.result_vec m c), (h c).2.2.1, (h c).2.2.2⟩)
      (Cert.KernelIdeal.Hand.run_main (F := Ideal) m ρ)
  · refine (θ_run Cert.ReferenceIdeal.defs _ _).mono (fun _ h c => ⟨(h c).1.trans ?_, (h c).2.1.trans ?_, (h c).2.2.1, (h c).2.2.2⟩)
      (Cert.ReferenceIdeal.Value.run (F := Ideal) m' ρ')
    · rw [Cert.ReferenceIdeal.Read.val_main_v17_eq, Cert.ReferenceIdeal.RefValue.ref_dist, (hagree c).1, (hagree c).2]
    · rw [Cert.ReferenceIdeal.Read.val_main_v8_eq, Cert.ReferenceIdeal.RefValue.ref_vec, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
